-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_norm_sq" .f32 0x179ABE15#32 ((5316911940649 / 5316911983139663491615228241121378304 : ℝ) : EReal)
  ∧ IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x12 : Shape := ⟨2, ![512, 12]⟩
abbrev S512x2x12x4096 : Shape := ⟨4, ![512, 2, 12, 4096]⟩
abbrev S_ : Shape := ⟨0, ![]⟩

class Facts : Prop where
  bcast_S_S512x12 : S_.BroadcastsInDim S512x12 (![] : Fin 0 → Fin S512x12.rank)
  reducesTo_S512x12_S_d0_1 : S512x12.ReducesTo [0, 1] S_
  h_S_ : 0 < S_.numel
  bcast_S_S512x2x12x4096 : S_.BroadcastsInDim S512x2x12x4096 (![] : Fin 0 → Fin S512x2x12x4096.rank)
  reducesTo_S512x2x12x4096_S_d0_1_2_3 : S512x2x12x4096.ReducesTo [0, 1, 2, 3] S_

variable [Facts]

def fn {F : FTy → Type} [FloatOps F] (main_arg0 : FVec F S512x12 .f32) (main_arg1 : IVec S512x12 32) (main_arg2 : FVec F S512x2x12x4096 .f32) : IVec S_ 1 :=
  let main_v0 : FVec F S512x12 .f32 := Host.absf main_arg0
  let main_cst : FVec F S_ .f32 := constant S_ .f32 0x7F800000#32
  let main_v1 : FVec F S512x12 .f32 := broadcastInDim S512x12 ![] bcast_S_S512x12 main_cst
  let main_v2 : IVec S512x12 1 := cmpf .olt main_v0 main_v1
  let main_c : IVec S_ 1 := constantI S_ 1 1#1
  let main_v3 : IVec S_ 1 := (fun x v => Host.reduce IntOp.andi x v reducesTo_S512x12_S_d0_1 h_S_) main_v2 main_c
  let main_v4 : FVec F S512x2x12x4096 .f32 := Host.absf main_arg2
  let main_cst_0 : FVec F S_ .f32 := constant S_ .f32 0x7F800000#32
  let main_v5 : FVec F S512x2x12x4096 .f32 := broadcastInDim S512x2x12x4096 ![] bcast_S_S512x2x12x4096 main_cst_0
  let main_v6 : IVec S512x2x12x4096 1 := cmpf .olt main_v4 main_v5
  let main_c_1 : IVec S_ 1 := constantI S_ 1 1#1
  let main_v7 : IVec S_ 1 := (fun x v => Host.reduce IntOp.andi x v reducesTo_S512x2x12x4096_S_d0_1_2_3 h_S_) main_v6 main_c_1
  let main_v8 : IVec S_ 1 := andi main_v3 main_v7
  main_v8
-- ==== Kernel.lean ====
abbrev S512x12 : Shape := ⟨2, ![512, 12]⟩
abbrev S512x2x12x4096 : Shape := ⟨4, ![512, 2, 12, 4096]⟩
abbrev S1x24x24 : Shape := ⟨3, ![1, 24, 24]⟩
abbrev S512x24x4096 : Shape := ⟨3, ![512, 24, 4096]⟩
abbrev S256x128 : Shape := ⟨2, ![256, 128]⟩
abbrev S16x24x4096 : Shape := ⟨3, ![16, 24, 4096]⟩
abbrev S8x128 : Shape := ⟨2, ![8, 128]⟩
abbrev S16x24 : Shape := ⟨2, ![16, 24]⟩
abbrev S16x24x1 : Shape := ⟨3, ![16, 24, 1]⟩
abbrev S16x24x24 : Shape := ⟨3, ![16, 24, 24]⟩
abbrev S1x24 : Shape := ⟨2, ![1, 24]⟩
abbrev S16 : Shape := ⟨1, ![16]⟩
abbrev S16x1 : Shape := ⟨2, ![16, 1]⟩
abbrev S1 : Shape := ⟨1, ![1]⟩
abbrev S1x1 : Shape := ⟨2, ![1, 1]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S512x12, .f32⟩
  | .hbm, ⟨1, _⟩ => ⟨S512x12, .i32⟩
  | .hbm, ⟨2, _⟩ => ⟨S512x2x12x4096, .f32⟩
  | .hbm, ⟨3, _⟩ => ⟨S1x24x24, .f32⟩
  | .hbm, ⟨4, _⟩ => ⟨S1x24x24, .f32⟩
  | .hbm, ⟨5, _⟩ => ⟨S512x24x4096, .f32⟩
  | .hbm, ⟨6, _⟩ => ⟨S256x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S16x24x4096, .f32⟩
  | .local _ .vmem, ⟨1, _⟩ => ⟨S16x24x4096, .f32⟩
  | .local _ .vmem, ⟨2, _⟩ => ⟨S1x24x24, .f32⟩
  | .local _ .vmem, ⟨3, _⟩ => ⟨S1x24x24, .f32⟩
  | .local _ .vmem, ⟨4, _⟩ => ⟨S8x128, .f32⟩
  | .local _ .vmem, ⟨5, _⟩ => ⟨S8x128, .f32⟩
  | _, _ => ⟨S512x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x24x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x24x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x2x12x4096_S512x24x4096 : S512x2x12x4096.ShapeCasts S512x24x4096
  inb_S16x24x4096_S16x24x4096_0_0_0 : ∀ a, (![0, 0, 0] : Fin 3 → Nat) a + S16x24x4096.size a ≤ S16x24x4096.size a
  h_S16x24x4096 : 0 < S16x24x4096.numel
  shapeCasts_S16x24x4096_S16x24x4096 : S16x24x4096.ShapeCasts S16x24x4096
  reduces_S16x24x4096_S16x24 : S16x24x4096.Reduces [2] S16x24
  shapeCasts_S16x24_S16x24x1 : S16x24.ShapeCasts S16x24x1
  broadcasts_S16x24x1_S16x24x4096 : S16x24x1.Broadcasts S16x24x4096
  bitsLt_bf16_f32 : FTy.bits .bf16 < FTy.bits .f32
  inb_S1x24x24_S1x24x24_0_0_0 : ∀ a, (![0, 0, 0] : Fin 3 → Nat) a + S1x24x24.size a ≤ S1x24x24.size a
  h_S1x24x24 : 0 < S1x24x24.numel
  broadcasts_S1x24x24_S16x24x24 : S1x24x24.Broadcasts S16x24x24
  reduces_S16x24x24_S16x24 : S16x24x24.Reduces [2] S16x24
  broadcasts_S16x24x1_S16x24x24 : S16x24x1.Broadcasts S16x24x24
  reduces_S1x24x24_S1x24 : S1x24x24.Reduces [2] S1x24
  broadcasts_S1x24_S16x24 : S1x24.Broadcasts S16x24
  reduces_S16x24_S16 : S16x24.Reduces [1] S16
  shapeCasts_S16_S16x1 : S16.ShapeCasts S16x1
  reduces_S16x1_S1 : S16x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S256x128_S_d0_1 : S256x128.ReducesTo [0, 1] S_
  h_S_ : 0 < S_.numel
  dot_S16x24x4096_S16x24x4096_S16x24x24_2_2_1_1_0_0_wf : DotDims.WF S16x24x4096 S16x24x4096 S16x24x24 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x24x4096.size a ≤ S512x24x4096.size a
  hwx0_0 : ∀ i : grid0.Coords, EltTy.bits .f32 = 32 ∨ (Rect.block (s := S512x24x4096) S16x24x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x24x24.size a ≤ S1x24x24.size a
  hwx0_1 : ∀ i : grid0.Coords, EltTy.bits .f32 = 32 ∨ (Rect.block (s := S1x24x24) S1x24x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x24x24.size a ≤ S1x24x24.size a
  hwx0_2 : ∀ i : grid0.Coords, EltTy.bits .f32 = 32 ∨ (Rect.block (s := S1x24x24) S1x24x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S256x128.size a
  hwx0_3 : ∀ i : grid0.Coords, EltTy.bits .f32 = 32 ∨ (Rect.block (s := S256x128) S8x128.size (cc0_transform_3 i) (hinb0_3 i)).WholeWords (EltTy.packing .f32)

variable [Facts₀]

def dot_S16x24x4096_S16x24x4096_S16x24x24_2_2_1_1_0_0 : DotDims S16x24x4096 S16x24x4096 S16x24x24 where
  lhsContracting := [2]
  rhsContracting := [2]
  lhsNonContracting := [1]
  rhsNonContracting := [1]
  lhsBatch := [0]
  rhsBatch := [0]
  wf := dot_S16x24x4096_S16x24x4096_S16x24x24_2_2_1_1_0_0_wf

abbrev win0_0 : Pipeline.Window sig grid0 :=
  Pipeline.Window.ofSpec (Memref.whole main_v0) S16x24x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S1x24x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S1x24x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x12 : Shape := ⟨2, ![512, 12]⟩
abbrev S512x2x12x4096 : Shape := ⟨4, ![512, 2, 12, 4096]⟩
abbrev S512x24x4096 : Shape := ⟨3, ![512, 24, 4096]⟩
abbrev S_ : Shape := ⟨0, ![]⟩
abbrev S512x24 : Shape := ⟨2, ![512, 24]⟩
abbrev S512x24x1 : Shape := ⟨3, ![512, 24, 1]⟩
abbrev S512x24x24 : Shape := ⟨3, ![512, 24, 24]⟩
abbrev S24x24 : Shape := ⟨2, ![24, 24]⟩
abbrev S12 : Shape := ⟨1, ![12]⟩
abbrev S12x1 : Shape := ⟨2, ![12, 1]⟩
abbrev S1x12 : Shape := ⟨2, ![1, 12]⟩
abbrev S12x12 : Shape := ⟨2, ![12, 12]⟩
abbrev S1x12x1x12 : Shape := ⟨4, ![1, 12, 1, 12]⟩
abbrev S2x12x2x12 : Shape := ⟨4, ![2, 12, 2, 12]⟩
abbrev S1x24x24 : Shape := ⟨3, ![1, 24, 24]⟩
abbrev S24 : Shape := ⟨1, ![24]⟩
abbrev S1x24 : Shape := ⟨2, ![1, 24]⟩
abbrev S512 : Shape := ⟨1, ![512]⟩

abbrev nBuf : Space → Nat
  | .hbm => 81
  | .vmem => 0
  | .smem => 0
  | _ => 0

abbrev bufTy : (tb : Table) → Fin (tcTables nBuf tb) → BufTy
  | .hbm, ⟨0, _⟩ => ⟨S512x12, .f32⟩
  | .hbm, ⟨1, _⟩ => ⟨S512x12, .i32⟩
  | .hbm, ⟨2, _⟩ => ⟨S512x2x12x4096, .f32⟩
  | .hbm, ⟨3, _⟩ => ⟨S512x24x4096, .f32⟩
  | .hbm, ⟨4, _⟩ => ⟨S512x24x4096, .f32⟩
  | .hbm, ⟨5, _⟩ => ⟨S_, .f32⟩
  | .hbm, ⟨6, _⟩ => ⟨S512x24, .f32⟩
  | .hbm, ⟨7, _⟩ => ⟨S512x24x1, .f32⟩
  | .hbm, ⟨8, _⟩ => ⟨S512x24x1, .f32⟩
  | .hbm, ⟨9, _⟩ => ⟨S_, .f32⟩
  | .hbm, ⟨10, _⟩ => ⟨S_, .f32⟩
  | .hbm, ⟨11, _⟩ => ⟨S512x24x1, .f32⟩
  | .hbm, ⟨12, _⟩ => ⟨S512x24x1, .f32⟩
  | .hbm, ⟨13, _⟩ => ⟨S512x24x4096, .f32⟩
  | .hbm, ⟨14, _⟩ => ⟨S512x24x4096, .f32⟩
  | .hbm, ⟨15, _⟩ => ⟨S512x24x24, .f32⟩
  | .hbm, ⟨16, _⟩ => ⟨S_, .f32⟩
  | .hbm, ⟨17, _⟩ => ⟨S512x24x24, .f32⟩
  | .hbm, ⟨18, _⟩ => ⟨S512x24x24, .f32⟩
  | .hbm, ⟨19, _⟩ => ⟨S24x24, .i32⟩
  | .hbm, ⟨20, _⟩ => ⟨S24x24, .i32⟩
  | .hbm, ⟨21, _⟩ => ⟨S_, .i32⟩
  | .hbm, ⟨22, _⟩ => ⟨S24x24, .i32⟩
  | .hbm, ⟨23, _⟩ => ⟨S24x24, .i32⟩
  | .hbm, ⟨24, _⟩ => ⟨S24x24, .i1⟩
  | .hbm, ⟨25, _⟩ => ⟨S24x24, .f32⟩
  | .hbm, ⟨26, _⟩ => ⟨S_, .f32⟩
  | .hbm, ⟨27, _⟩ => ⟨S24x24, .f32⟩
  | .hbm, ⟨28, _⟩ => ⟨S24x24, .f32⟩
  | .hbm, ⟨29, _⟩ => ⟨S12, .i32⟩
  | .hbm, ⟨30, _⟩ => ⟨S12x1, .i32⟩
  | .hbm, ⟨31, _⟩ => ⟨S1x12, .i32⟩
  | .hbm, ⟨32, _⟩ => ⟨S12x12, .i32⟩
  | .hbm, ⟨33, _⟩ => ⟨S12x12, .i32⟩
  | .hbm, ⟨34, _⟩ => ⟨S12x12, .i32⟩
  | .hbm, ⟨35, _⟩ => ⟨S12x12, .i32⟩
  | .hbm, ⟨36, _⟩ => ⟨S_, .i32⟩
  | .hbm, ⟨37, _⟩ => ⟨S12x12, .i32⟩
  | .hbm, ⟨38, _⟩ => ⟨S12x12, .i1⟩
  | .hbm, ⟨39, _⟩ => ⟨S12x12, .f32⟩
  | .hbm, ⟨40, _⟩ => ⟨S1x12x1x12, .f32⟩
  | .hbm, ⟨41, _⟩ => ⟨S2x12x2x12, .f32⟩
  | .hbm, ⟨42, _⟩ => ⟨S24x24, .f32⟩
  | .hbm, ⟨43, _⟩ => ⟨S24x24, .f32⟩
  | .hbm, ⟨44, _⟩ => ⟨S512x24x24, .f32⟩
  | .hbm, ⟨45, _⟩ => ⟨S1x24x24, .f32⟩
  | .hbm, ⟨46, _⟩ => ⟨S512x24x24, .f32⟩
  | .hbm, ⟨47, _⟩ => ⟨S512x24x24, .f32⟩
  | .hbm, ⟨48, _⟩ => ⟨S_, .f32⟩
  | .hbm, ⟨49, _⟩ => ⟨S512x24, .f32⟩
  | .hbm, ⟨50, _⟩ => ⟨S512x24x1, .f32⟩
  | .hbm, ⟨51, _⟩ => ⟨S512x24x1, .f32⟩
  | .hbm, ⟨52, _⟩ => ⟨S512x24x24, .f32⟩
  | .hbm, ⟨53, _⟩ => ⟨S512x24x24, .f32⟩
  | .hbm, ⟨54, _⟩ => ⟨S1x24x24, .f32⟩
  | .hbm, ⟨55, _⟩ => ⟨S512x24x24, .f32⟩
  | .hbm, ⟨56, _⟩ => ⟨S512x24x24, .f32⟩
  | .hbm, ⟨57, _⟩ => ⟨S_, .f32⟩
  | .hbm, ⟨58, _⟩ => ⟨S512x24, .f32⟩
  | .hbm, ⟨59, _⟩ => ⟨S_, .f32⟩
  | .hbm, ⟨60, _⟩ => ⟨S24, .f32⟩
  | .hbm, ⟨61, _⟩ => ⟨S_, .f32⟩
  | .hbm, ⟨62, _⟩ => ⟨S24, .f32⟩
  | .hbm, ⟨63, _⟩ => ⟨S24, .f32⟩
  | .hbm, ⟨64, _⟩ => ⟨S1x24, .f32⟩
  | .hbm, ⟨65, _⟩ => ⟨S512x24, .f32⟩
  | .hbm, ⟨66, _⟩ => ⟨S512x24, .f32⟩
  | .hbm, ⟨67, _⟩ => ⟨S_, .f32⟩
  | .hbm, ⟨68, _⟩ => ⟨S512x24, .f32⟩
  | .hbm, ⟨69, _⟩ => ⟨S512x24, .f32⟩
  | .hbm, ⟨70, _⟩ => ⟨S_, .f32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S512x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  shapeCasts_S512x2x12x4096_S512x24x4096 : S512x2x12x4096.ShapeCasts S512x24x4096
  reducesTo_S512x24x4096_S512x24_d2 : S512x24x4096.ReducesTo [2] S512x24
  h_S_ : 0 < S_.numel
  bcast_S512x24_S512x24x1_0_1 : S512x24.BroadcastsInDim S512x24x1 (![0, 1] : Fin 2 → Fin S512x24x1.rank)
  bcast_S_S512x24x1 : S_.BroadcastsInDim S512x24x1 (![] : Fin 0 → Fin S512x24x1.rank)
  bcast_S512x24x1_S512x24x4096_0_1_2 : S512x24x1.BroadcastsInDim S512x24x4096 (![0, 1, 2] : Fin 3 → Fin S512x24x4096.rank)
  bcast_S_S512x24x24 : S_.BroadcastsInDim S512x24x24 (![] : Fin 0 → Fin S512x24x24.rank)
  bcast_S_S24x24 : S_.BroadcastsInDim S24x24 (![] : Fin 0 → Fin S24x24.rank)
  bcast_S12_S12x1_0 : S12.BroadcastsInDim S12x1 (![0] : Fin 1 → Fin S12x1.rank)
  bcast_S12_S1x12_1 : S12.BroadcastsInDim S1x12 (![1] : Fin 1 → Fin S1x12.rank)
  bcast_S12x1_S12x12_0_1 : S12x1.BroadcastsInDim S12x12 (![0, 1] : Fin 2 → Fin S12x12.rank)
  bcast_S1x12_S12x12_0_1 : S1x12.BroadcastsInDim S12x12 (![0, 1] : Fin 2 → Fin S12x12.rank)
  bcast_S_S12x12 : S_.BroadcastsInDim S12x12 (![] : Fin 0 → Fin S12x12.rank)
  shapeCasts_S12x12_S1x12x1x12 : S12x12.ShapeCasts S1x12x1x12
  bcast_S1x12x1x12_S2x12x2x12_0_1_2_3 : S1x12x1x12.BroadcastsInDim S2x12x2x12 (![0, 1, 2, 3] : Fin 4 → Fin S2x12x2x12.rank)
  shapeCasts_S2x12x2x12_S24x24 : S2x12x2x12.ShapeCasts S24x24
  bcast_S24x24_S1x24x24_1_2 : S24x24.BroadcastsInDim S1x24x24 (![1, 2] : Fin 2 → Fin S1x24x24.rank)
  bcast_S1x24x24_S512x24x24_0_1_2 : S1x24x24.BroadcastsInDim S512x24x24 (![0, 1, 2] : Fin 3 → Fin S512x24x24.rank)
  reducesTo_S512x24x24_S512x24_d2 : S512x24x24.ReducesTo [2] S512x24
  bcast_S512x24x1_S512x24x24_0_1_2 : S512x24x1.BroadcastsInDim S512x24x24 (![0, 1, 2] : Fin 3 → Fin S512x24x24.rank)
  reducesTo_S24x24_S24_d1 : S24x24.ReducesTo [1] S24
  bcast_S_S24 : S_.BroadcastsInDim S24 (![] : Fin 0 → Fin S24.rank)
  bcast_S24_S1x24_1 : S24.BroadcastsInDim S1x24 (![1] : Fin 1 → Fin S1x24.rank)
  bcast_S1x24_S512x24_0_1 : S1x24.BroadcastsInDim S512x24 (![0, 1] : Fin 2 → Fin S512x24.rank)
  bcast_S_S512x24 : S_.BroadcastsInDim S512x24 (![] : Fin 0 → Fin S512x24.rank)
  reducesTo_S512x24_S512_d1 : S512x24.ReducesTo [1] S512
  bcast_S_S512 : S_.BroadcastsInDim S512 (![] : Fin 0 → Fin S512.rank)
  reducesTo_S512_S_d0 : S512.ReducesTo [0] S_
  dot_S512x24x4096_S512x24x4096_S512x24x24_2_2_1_1_0_0_wf : DotDims.WF S512x24x4096 S512x24x4096 S512x24x24 [2] [2] [1] [1] [0] [0]

variable [Facts₀]

def dot_S512x24x4096_S512x24x4096_S512x24x24_2_2_1_1_0_0 : DotDims S512x24x4096 S512x24x4096 S512x24x24 where
  lhsContracting := [2]
  rhsContracting := [2]
  lhsNonContracting := [1]
  rhsNonContracting := [1]
  lhsBatch := [0]
  rhsBatch := [0]
  wf := dot_S512x24x4096_S512x24x4096_S512x24x24_2_2_1_1_0_0_wf

class Facts : Prop extends Facts₀ where

variable [Facts]
-- ==== Proof.KernelOps.lean ====
/-
  The kernel body's non-pointwise operations read at explicit coordinates, at the ideal values: its five sums over
  one axis, its keepdims casts, its broadcasts of a column, of a row and of the two masks, and the batched row-by-row
  inner products of a [16, 24, 4096] block with itself.
-/
import proofs.«103575_j89678917140919_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Contrast.Ker

open Idealize.ShloMosaic Idealize.ShloMosaic.ValueIdx Cert.KernelIdeal

/-! ## Sums over one axis -/

/-- The sum over the features of a [16, 24, 4096] block, at (sample, anchor). -/
theorem sum_feat (v : FVec Ideal S16x24x4096 .f32) (h : S16x24x4096.Reduces [2] S16x24) (hφ : FKind.Formats .f32)
    (hacc : (0x00000000#32 : BitVec 32) = FKind.add.neutral .f32 hφ) (b : Fin 16) (m : Fin 24) :
    multiReduction .add [2] S16x24 v 0x00000000#32 h hφ hacc (ix2 b m) = ∑ k : Fin 4096, v (ix3 b m k) := by
  refine (Ideal.multiReduction_add_single v 0x00000000#32 h hφ hacc (ix2 b m)).trans ?_
  exact Finset.sum_congr rfl fun k _ => congrArg v (funext fun ax => Fin.ext (by
    match ax with | ⟨0, _⟩ => rfl | ⟨1, _⟩ => rfl | ⟨2, _⟩ => rfl))

/-- The sum over the second anchor of a [16, 24, 24] array, at (sample, anchor). -/
theorem sum_pair (v : FVec Ideal S16x24x24 .f32) (h : S16x24x24.Reduces [2] S16x24) (hφ : FKind.Formats .f32)
    (hacc : (0x00000000#32 : BitVec 32) = FKind.add.neutral .f32 hφ) (b : Fin 16) (m : Fin 24) :
    multiReduction .add [2] S16x24 v 0x00000000#32 h hφ hacc (ix2 b m) = ∑ n : Fin 24, v (ix3 b m n) := by
  refine (Ideal.multiReduction_add_single v 0x00000000#32 h hφ hacc (ix2 b m)).trans ?_
  exact Finset.sum_congr rfl fun k _ => congrArg v (funext fun ax => Fin.ext (by
    match ax with | ⟨0, _⟩ => rfl | ⟨1, _⟩ => rfl | ⟨2, _⟩ => rfl))

/-- The row sums of a [1, 24, 24] mask. -/
theorem sum_mask (v : FVec Ideal S1x24x24 .f32) (h : S1x24x24.Reduces [2] S1x24) (hφ : FKind.Formats .f32)
    (hacc : (0x00000000#32 : BitVec 32) = FKind.add.neutral .f32 hφ) (u : Fin 1) (m : Fin 24) :
    multiReduction .add [2] S1x24 v 0x00000000#32 h hφ hacc (ix2 u m) = ∑ n : Fin 24, v (ix3 u m n) := by
  refine (Ideal.multiReduction_add_single v 0x00000000#32 h hφ hacc (ix2 u m)).trans ?_
  exact Finset.sum_congr rfl fun k _ => congrArg v (funext fun ax => Fin.ext (by
    match ax with | ⟨0, _⟩ => rfl | ⟨1, _⟩ => rfl | ⟨2, _⟩ => rfl))

/-- The sum over the anchors of a [16, 24] array, at a sample. -/
theorem sum_anchor (v : FVec Ideal S16x24 .f32) (h : S16x24.Reduces [1] S16) (hφ : FKind.Formats .f32)
    (hacc : (0x00000000#32 : BitVec 32) = FKind.add.neutral .f32 hφ) (b : Fin 16) :
    multiReduction .add [1] S16 v 0x00000000#32 h hφ hacc (ix1 b) = ∑ m : Fin 24, v (ix2 b m) := by
  refine (Ideal.multiReduction_add_single v 0x00000000#32 h hφ hacc (ix1 b)).trans ?_
  exact Finset.sum_congr rfl fun k _ => congrArg v (funext fun ax => Fin.ext (by
    match ax with | ⟨0, _⟩ => rfl | ⟨1, _⟩ => rfl))

/-- The sum over the sixteen samples of a [16, 1] column. -/
theorem sum_sample (v : FVec Ideal S16x1 .f32) (h : S16x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ j : Fin 16, v (ix2 j u) := by
  refine (Ideal.multiReduction_add_single v 0x00000000#32 h hφ hacc (ix1 u)).trans ?_
  exact Finset.sum_congr rfl fun k _ => congrArg v (funext fun ax => Fin.ext (by
    match ax with | ⟨0, _⟩ => rfl | ⟨1, _⟩ => rfl))

/-! ## Keepdims casts -/

/-- A [16, 24] array viewed [16, 24, 1]. -/
theorem cast_col3 {α : Type} (v : S16x24.Idx → α) (h : S16x24.ShapeCasts S16x24x1) (b : Fin 16) (m : Fin 24) (u : Fin 1) :
    shapeCast S16x24x1 v h (ix3 b m u) = v (ix2 b m) :=
  shapeCast_apply v h _ _ (by
    have hu : u.val = 0 := by omega
    rw [Shape.rowMajor_val_two, Shape.rowMajor_val_three]
    show b.val * 24 + m.val = (b.val * 24 + m.val) * 1 + u.val
    omega)

/-- A [16] array viewed [16, 1]. -/
theorem cast_col2 {α : Type} (v : S16.Idx → α) (h : S16.ShapeCasts S16x1) (b : Fin 16) (u : Fin 1) :
    shapeCast S16x1 v h (ix2 b u) = v (ix1 b) :=
  shapeCast_apply v h _ _ (by
    have hu : u.val = 0 := by omega
    rw [Shape.rowMajor_val_one, Shape.rowMajor_val_two]
    show b.val = b.val * 1 + u.val
    omega)

/-- A [1] array viewed [1, 1]. -/
theorem cast_one {α : Type} (v : S1.Idx → α) (h : S1.ShapeCasts S1x1) (u w : Fin 1) :
    shapeCast S1x1 v h (ix2 u w) = v (ix1 (0 : Fin 1)) :=
  shapeCast_apply v h _ _ (by
    have hu : u.val = 0 := by omega
    have hw : w.val = 0 := by omega
    rw [Shape.rowMajor_val_one, Shape.rowMajor_val_two]
    show (0 : Fin 1).val = u.val * 1 + w.val
    simp [hu, hw])

/-! ## Broadcasts -/

/-- A [16, 24, 1] column broadcast along the 4096 features. -/
theorem bcast_col_feat {α : Type} (v : S16x24x1.Idx → α) (h : S16x24x1.Broadcasts S16x24x4096) (b : Fin 16) (m : Fin 24) (d : Fin 4096) :
    broadcastTo S16x24x4096 v h (ix3 b m d) = v (ix3 b m (0 : Fin 1)) := by
  refine broadcastTo_apply v h (ix3 b m d) (ix3 b m (0 : Fin 1)) fun ax => ?_
  match ax with | ⟨0, _⟩ => rfl | ⟨1, _⟩ => rfl | ⟨2, _⟩ => rfl

/-- A [16, 24, 1] column broadcast along the second anchor. -/
theorem bcast_col_pair {α : Type} (v : S16x24x1.Idx → α) (h : S16x24x1.Broadcasts S16x24x24) (b : Fin 16) (m n : Fin 24) :
    broadcastTo S16x24x24 v h (ix3 b m n) = v (ix3 b m (0 : Fin 1)) := by
  refine broadcastTo_apply v h (ix3 b m n) (ix3 b m (0 : Fin 1)) fun ax => ?_
  match ax with | ⟨0, _⟩ => rfl | ⟨1, _⟩ => rfl | ⟨2, _⟩ => rfl

/-- A [1, 24, 24] mask broadcast over the sixteen samples. -/
theorem bcast_mask {α : Type} (v : S1x24x24.Idx → α) (h : S1x24x24.Broadcasts S16x24x24) (b : Fin 16) (m n : Fin 24) :
    broadcastTo S16x24x24 v h (ix3 b m n) = v (ix3 (0 : Fin 1) m n) := by
  refine broadcastTo_apply v h (ix3 b m n) (ix3 (0 : Fin 1) m n) fun ax => ?_
  match ax with | ⟨0, _⟩ => rfl | ⟨1, _⟩ => rfl | ⟨2, _⟩ => rfl

/-- A [1, 1] value broadcast over an [8, 128] block. -/
theorem bcast_block {α : Type} (v : S1x1.Idx → α) (h : S1x1.Broadcasts S8x128) (r : Fin 8) (l : Fin 128) :
    broadcastTo S8x128 v h (ix2 r l) = v (ix2 (0 : Fin 1) (0 : Fin 1)) := by
  refine broadcastTo_apply v h (ix2 r l) (ix2 (0 : Fin 1) (0 : Fin 1)) fun ax => ?_
  match ax with | ⟨0, _⟩ => rfl | ⟨1, _⟩ => rfl

end Cert.Contrast.Ker

end
-- ==== Proof.Spec.lean ====
/-
  The loss both programs compute, as one function of the feature rows, over plain index types.

  A sample is 24 anchor rows of 4096 features (two views of twelve classes). Each row is scaled to unit
  length, the rows' pairwise inner products are divided by the temperature (the logits), and for each
  anchor the log-softmax over the OTHER anchors is averaged over its positives: the anchors of a
  neighbouring class (class distance at most one) in either view, itself excluded. A sample's loss is
  minus the temperature times the mean over its anchors, and the result is the mean over the 512 samples.
-/
import Mathlib
import Idealize.ShloMosaic.PureOps.Ideal
import Idealize.ShloMosaic.Lib.ValueIdx

noncomputable section

namespace Cert.Contrast

open Idealize.ShloMosaic

/-- The softmax mask: every other anchor, never the anchor itself. -/
def lmask (m n : Fin 24) : EReal := if m = n then 0 else 1

/-- The positives of anchor `m`: another anchor whose class (the index mod 12) is at distance at most one. -/
def pmask (m n : Fin 24) : EReal :=
  if m ≠ n ∧ m.val % 12 ≤ n.val % 12 + 1 ∧ n.val % 12 ≤ m.val % 12 + 1 then 1 else 0

/-- The inner products of a sample's rows. -/
def gram (u : Fin 24 → Fin 4096 → EReal) (m n : Fin 24) : EReal := ∑ d, u m d * u n d

/-- A row scaled by the reciprocal square root of its squared length clamped below at `κ`. -/
def unitRsqrt (κ : EReal) (x : Fin 24 → Fin 4096 → EReal) (m : Fin 24) (d : Fin 4096) : EReal :=
  x m d * Ideal.rsqrt (max (∑ k, x m k * x m k) κ)

/-- A row divided by its length clamped below at `D`. -/
def unitDiv (D : EReal) (x : Fin 24 → Fin 4096 → EReal) (m : Fin 24) (d : Fin 4096) : EReal :=
  Ideal.div (x m d) (max D (Ideal.sqrt (∑ k, x m k * x m k)))

/-- Anchor `m`'s mean log-probability of its positives, from the logits `L`: the masked log-softmax summed
    over the positives, over their number plus `e`. -/
def anchor (lm pm : Fin 24 → Fin 24 → EReal) (e : EReal) (L : Fin 24 → Fin 24 → EReal) (m : Fin 24) : EReal :=
  Ideal.div (∑ n, pm m n * (L m n - Ideal.log (∑ k, Ideal.exp (L m k) * lm m k))) ((∑ n, pm m n) + e)

/-- One sample as the kernel computes it: logits by a product with `s`, the scale applied to the anchors' mean. -/
def sampleMul (κ s c w24 e : EReal) (lm pm : Fin 24 → Fin 24 → EReal) (x : Fin 24 → Fin 4096 → EReal) : EReal :=
  c * Ideal.div (∑ m, anchor lm pm e (fun m n => gram (unitRsqrt κ x) m n * s) m) w24

/-- One sample as the reference computes it: logits by a quotient by `T`, the scale applied anchor by anchor. -/
def sampleDiv (D T c w24 e : EReal) (lm pm : Fin 24 → Fin 24 → EReal) (x : Fin 24 → Fin 4096 → EReal) : EReal :=
  Ideal.div (∑ m, c * anchor lm pm e (fun m n => Ideal.div (gram (unitDiv D x) m n) T) m) w24

/-- Sample `b`'s anchor rows out of the feature array [512, 2, 12, 4096]: anchor `m` is view `m / 12`, class `m % 12`. -/
def rowsOf (X : (⟨4, ![512, 2, 12, 4096]⟩ : Shape).Idx → EReal) (b : Fin 512) (m : Fin 24) (d : Fin 4096) : EReal :=
  X (ValueIdx.ix4 b ⟨m.val / 12, by omega⟩ ⟨m.val % 12, by omega⟩ d)

/-- The reference's result: the samples' losses summed, times `w1`, over `w512`. -/
def refLoss (D T c w24 e w1 w512 : EReal) (x : Fin 512 → Fin 24 → Fin 4096 → EReal) : EReal :=
  Ideal.div (w1 * ∑ b, sampleDiv D T c w24 e lmask pmask (x b)) w512

/-- The kernel's result: thirty-two tiles of sixteen samples; a tile's sum over `w1024` sits at each of the 8 × 128
    entries of the tile's block of a [256, 128] array, whose total is scaled by `wi512`. -/
def kerLoss (κ s c w24 e w1024 wi512 : EReal) (x : Fin 512 → Fin 24 → Fin 4096 → EReal) : EReal :=
  wi512 * ∑ i : (⟨2, ![256, 128]⟩ : Shape).Idx,
    Ideal.div (∑ j : Fin 16, sampleMul κ s c w24 e lmask pmask
      (x ⟨16 * ((i 0).val / 8) + j.val, by have := ValueIdx.idx2_lt0 i; have := j.isLt; omega⟩)) w1024

end Cert.Contrast

end
-- ==== Proof.KernelPay.lean ====
/-
  The kernel body's arithmetic read at explicit coordinates, at the ideal values, stage by stage: the unit rows, the
  logits, an anchor's mean log-probability of its positives, a sample's loss, and a tile's sum spread over its
  [8, 128] output block. Together: the block a grid point writes holds, at every entry, the sum of its sixteen
  samples' losses over 1024.
-/
import proofs.«103575_j89678917140919_2_alg».proof.Proof.KernelOps
import proofs.«103575_j89678917140919_2_alg».proof.Proof.Spec

noncomputable section

namespace Cert.Contrast.Ker

open Idealize.ShloMosaic Idealize.ShloMosaic.ValueIdx Cert.KernelIdeal Cert.KernelIdeal.Gen

/-! ## The batched inner products -/

/-- The kernel's contraction: batch axis 0 of both operands, the feature axis of both contracted. -/
abbrev dotK : DotDims S16x24x4096 S16x24x4096 S16x24x24 := dot_S16x24x4096_S16x24x4096_S16x24x24_2_2_1_1_0_0

theorem lhsK_0 (i : S16x24x24.Idx) (q : dotK.contr.Idx) : (dotK.lhsIdx i q 0).val = (i 0).val := by
  unfold DotDims.lhsIdx
  rw [dif_pos (show (0 : Fin S16x24x4096.rank) ∈ dotK.lhsBatch by decide)]
  rfl
theorem lhsK_1 (i : S16x24x24.Idx) (q : dotK.contr.Idx) : (dotK.lhsIdx i q 1).val = (i 1).val := by
  unfold DotDims.lhsIdx
  rw [dif_neg (show ¬(1 : Fin S16x24x4096.rank) ∈ dotK.lhsBatch by decide),
    dif_pos (show (1 : Fin S16x24x4096.rank) ∈ dotK.lhsNonContracting by decide)]
  rfl
theorem lhsK_2 (i : S16x24x24.Idx) (q : dotK.contr.Idx) : (dotK.lhsIdx i q 2).val = (q ⟨0, by decide⟩).val :=
  dotK.lhsIdx_val_of_single rfl i q
theorem rhsK_0 (i : S16x24x24.Idx) (q : dotK.contr.Idx) : (dotK.rhsIdx i q 0).val = (i 0).val := by
  unfold DotDims.rhsIdx
  rw [dif_pos (show (0 : Fin S16x24x4096.rank) ∈ dotK.rhsBatch by decide)]
  rfl
theorem rhsK_1 (i : S16x24x24.Idx) (q : dotK.contr.Idx) : (dotK.rhsIdx i q 1).val = (i 2).val := by
  unfold DotDims.rhsIdx
  rw [dif_neg (show ¬(1 : Fin S16x24x4096.rank) ∈ dotK.rhsBatch by decide),
    dif_pos (show (1 : Fin S16x24x4096.rank) ∈ dotK.rhsNonContracting by decide)]
  rfl
theorem rhsK_2 (i : S16x24x24.Idx) (q : dotK.contr.Idx) : (dotK.rhsIdx i q 2).val = (q ⟨0, by decide⟩).val :=
  dotK.rhsIdx_val_of_single rfl i q

/-- Into the zero accumulator the product at (sample, anchor, anchor) is the inner product of the sample's two rows. -/
theorem gram_apply (l r : FVec Ideal S16x24x4096 .bf16) (b : Fin 16) (m n : Fin 24) :
    matmul dotK none l r (constant S16x24x24 .f32 0x00000000#32) (ix3 b m n)
      = ∑ k : Fin 4096, l (ix3 b m k) * r (ix3 b n k) := by
  refine (Ideal.matmul_constant_zero_apply dotK none l r (ix3 b m n)).trans ?_
  rw [← Equiv.sum_comp (contrEquiv1 dotK 4096 rfl rfl).symm]
  refine Finset.sum_congr rfl fun k _ => ?_
  have hk := contrEquiv1_symm_val dotK 4096 rfl rfl k
  have el : dotK.lhsIdx (ix3 b m n) ((contrEquiv1 dotK 4096 rfl rfl).symm k) = ix3 b m k := funext fun a => Fin.ext (by
    match a with
    | ⟨0, _⟩ => exact lhsK_0 _ _
    | ⟨1, _⟩ => exact lhsK_1 _ _
    | ⟨2, _⟩ => exact (lhsK_2 _ _).trans hk)
  have er : dotK.rhsIdx (ix3 b m n) ((contrEquiv1 dotK 4096 rfl rfl).symm k) = ix3 b n k := funext fun a => Fin.ext (by
    match a with
    | ⟨0, _⟩ => exact rhsK_0 _ _
    | ⟨1, _⟩ => exact rhsK_1 _ _
    | ⟨2, _⟩ => exact (rhsK_2 _ _).trans hk)
  rw [el, er]

/-! ## The stages -/

/-- A row times the reciprocal square root of its clamped squared length. -/
theorem stage_unit (x0 : FVec Ideal S16x24x4096 .f32) (κw : Ideal .f32)
    (h1 : S16x24x4096.Reduces [2] S16x24) (hφ : FKind.Formats .f32) (hacc : (0x00000000#32 : BitVec 32) = FKind.add.neutral .f32 hφ)
    (h2 : S16x24.ShapeCasts S16x24x1) (h3 : S16x24x1.Broadcasts S16x24x4096) (b : Fin 16) (m : Fin 24) (d : Fin 4096) :
    mulf x0 (broadcastTo S16x24x4096 (rsqrt (maximumf (shapeCast S16x24x1
        (multiReduction .add [2] S16x24 (mulf x0 x0) 0x00000000#32 h1 hφ hacc) h2) (broadcast S16x24x1 κw))) h3) (ix3 b m d)
      = unitRsqrt κw (fun m d => x0 (ix3 b m d)) m d := by
  show x0 (ix3 b m d) * broadcastTo S16x24x4096 (rsqrt (maximumf (shapeCast S16x24x1
        (multiReduction .add [2] S16x24 (mulf x0 x0) 0x00000000#32 h1 hφ hacc) h2) (broadcast S16x24x1 κw))) h3 (ix3 b m d) = _
  rw [bcast_col_feat]
  show x0 (ix3 b m d) * Ideal.rsqrt (max (shapeCast S16x24x1
        (multiReduction .add [2] S16x24 (mulf x0 x0) 0x00000000#32 h1 hφ hacc) h2 (ix3 b m (0 : Fin 1))) κw) = _
  rw [cast_col3, sum_feat]
  rfl

/-- The logits: the rows' inner products times the scale. -/
theorem stage_logit (nb : FVec Ideal S16x24x4096 .bf16) (s : Ideal .f32) (b : Fin 16) (m n : Fin 24) :
    mulf (matmul dotK none nb nb (constant S16x24x24 .f32 0x00000000#32)) (broadcast S16x24x24 s) (ix3 b m n)
      = gram (fun m d => nb (ix3 b m d)) m n * s := by
  show matmul dotK none nb nb (constant S16x24x24 .f32 0x00000000#32) (ix3 b m n) * s = _
  rw [gram_apply]
  rfl

/-- An anchor's mean log-probability of its positives, from the logits and the two masks. -/
theorem stage_anchor (L : FVec Ideal S16x24x24 .f32) (x1 x2 : FVec Ideal S1x24x24 .f32) (e : Ideal .f32)
    (hb : S1x24x24.Broadcasts S16x24x24) (h1 : S16x24x24.Reduces [2] S16x24) (hφ : FKind.Formats .f32)
    (hacc : (0x00000000#32 : BitVec 32) = FKind.add.neutral .f32 hφ) (h2 : S16x24.ShapeCasts S16x24x1)
    (h3 : S16x24x1.Broadcasts S16x24x24) (h4 : S1x24x24.Reduces [2] S1x24) (h5 : S1x24.Broadcasts S16x24)
    (b : Fin 16) (m : Fin 24) :
    divf (multiReduction .add [2] S16x24 (mulf (broadcastTo S16x24x24 x2 hb) (subf L (broadcastTo S16x24x24 (log (shapeCast S16x24x1
            (multiReduction .add [2] S16x24 (mulf (exp L) (broadcastTo S16x24x24 x1 hb)) 0x00000000#32 h1 hφ hacc) h2)) h3)))
          0x00000000#32 h1 hφ hacc)
        (broadcastTo S16x24 (addf (multiReduction .add [2] S1x24 x2 0x00000000#32 h4 hφ hacc) (broadcast S1x24 e)) h5) (ix2 b m)
      = anchor (fun m n => x1 (ix3 (0 : Fin 1) m n)) (fun m n => x2 (ix3 (0 : Fin 1) m n)) e (fun m n => L (ix3 b m n)) m := by
  show Ideal.div (multiReduction .add [2] S16x24 (mulf (broadcastTo S16x24x24 x2 hb) (subf L (broadcastTo S16x24x24 (log (shapeCast S16x24x1
            (multiReduction .add [2] S16x24 (mulf (exp L) (broadcastTo S16x24x24 x1 hb)) 0x00000000#32 h1 hφ hacc) h2)) h3)))
          0x00000000#32 h1 hφ hacc (ix2 b m))
        (broadcastTo S16x24 (addf (multiReduction .add [2] S1x24 x2 0x00000000#32 h4 hφ hacc) (broadcast S1x24 e)) h5 (ix2 b m)) = _
  rw [broadcastTo_1b_ab_apply, sum_pair]
  show Ideal.div _ (multiReduction .add [2] S1x24 x2 0x00000000#32 h4 hφ hacc (ix2 (0 : Fin 1) m) + e) = _
  rw [sum_mask]
  unfold anchor
  refine congrArg (fun t => Ideal.div t _) (Finset.sum_congr rfl fun n _ => ?_)
  show broadcastTo S16x24x24 x2 hb (ix3 b m n) * (L (ix3 b m n) - broadcastTo S16x24x24 (log (shapeCast S16x24x1
            (multiReduction .add [2] S16x24 (mulf (exp L) (broadcastTo S16x24x24 x1 hb)) 0x00000000#32 h1 hφ hacc) h2)) h3 (ix3 b m n)) = _
  rw [bcast_mask, bcast_col_pair]
  show _ * (_ - Ideal.log (shapeCast S16x24x1
            (multiReduction .add [2] S16x24 (mulf (exp L) (broadcastTo S16x24x24 x1 hb)) 0x00000000#32 h1 hφ hacc) h2 (ix3 b m (0 : Fin 1)))) = _
  rw [cast_col3, sum_pair]
  refine congrArg (fun t => _ * (_ - Ideal.log t)) (Finset.sum_congr rfl fun k _ => ?_)
  show Ideal.exp (L (ix3 b m k)) * broadcastTo S16x24x24 x1 hb (ix3 b m k) = _
  rw [bcast_mask]

/-- A sample's loss from its anchors' values. -/
theorem stage_sample (A : FVec Ideal S16x24 .f32) (c w24 : Ideal .f32) (h1 : S16x24.Reduces [1] S16) (hφ : FKind.Formats .f32)
    (hacc : (0x00000000#32 : BitVec 32) = FKind.add.neutral .f32 hφ) (h2 : S16.ShapeCasts S16x1) (b : Fin 16) (u : Fin 1) :
    mulf (broadcast S16x1 c) (divf (shapeCast S16x1 (multiReduction .add [1] S16 A 0x00000000#32 h1 hφ hacc) h2) (broadcast S16x1 w24)) (ix2 b u)
      = c * Ideal.div (∑ m : Fin 24, A (ix2 b m)) w24 := by
  show c * Ideal.div (shapeCast S16x1 (multiReduction .add [1] S16 A 0x00000000#32 h1 hφ hacc) h2 (ix2 b u)) w24 = _
  rw [cast_col2, sum_anchor]

/-- The tile's sum over 1024, at every entry of the [8, 128] block. -/
theorem stage_tile (P : FVec Ideal S16x1 .f32) (r : Fin 8) (l : Fin 128) :
    k0_pay1 (F := Ideal) P (ix2 r l)
      = Ideal.div (∑ j : Fin 16, P (ix2 j (0 : Fin 1))) (Ideal.ofBits .f32 0x44800000#32) := by
  unfold k0_pay1
  refine (bcast_block _ _ r l).trans ?_
  rw [shapeCast_self]
  show Ideal.div (shapeCast S1x1 _ _ (ix2 (0 : Fin 1) (0 : Fin 1))) _ = _
  rw [cast_one]
  exact congrArg (fun t => Ideal.div t _) (sum_sample _ _ _ _ (0 : Fin 1))

/-! ## The whole body -/

/-- The body's per-sample column: sample `b` of the block has the specification's per-sample loss of its rows, with the
    block's two masks. -/
theorem pay2_apply (x0 : Vec Ideal S16x24x4096 .f32) (x1 x2 : Vec Ideal S1x24x24 .f32) (b : Fin 16) (u : Fin 1) :
    k0_pay2 (F := Ideal) x0 x1 x2 (ix2 b u)
      = sampleMul (Named.named (F := Ideal) κ "eps_norm_sq" (φ := .f32) 0x179ABE15#32)
          (Named.named (F := Ideal) κ "inv_temperature" (φ := .f32) 0x41200000#32)
          (Ideal.ofBits .f32 0xBDCCCCCD#32) (Ideal.ofBits .f32 0x41C00000#32) (Ideal.ofBits .f32 0x358637BD#32)
          (fun m n => x1 (ix3 (0 : Fin 1) m n)) (fun m n => x2 (ix3 (0 : Fin 1) m n)) (fun m d => x0 (ix3 b m d)) := by
  unfold k0_pay2
  refine (stage_sample _ _ _ _ _ _ _ b u).trans ?_
  unfold sampleMul
  refine congrArg (fun t => _ * Ideal.div t _) (Finset.sum_congr rfl fun m _ => ?_)
  refine (stage_anchor _ x1 x2 _ _ _ _ _ _ _ _ _ b m).trans ?_
  refine congrArg (fun L => anchor _ _ _ L m) (funext fun m' => funext fun n' => ?_)
  refine (stage_logit _ _ b m' n').trans ?_
  refine congrArg (· * _) ?_
  unfold gram
  refine Finset.sum_congr rfl fun d _ => ?_
  have hrow : ∀ r : Fin 24, truncf .bf16 (mulf (shapeCast S16x24x4096 x0 shapeCasts_S16x24x4096_S16x24x4096)
        (broadcastTo S16x24x4096 (rsqrt (maximumf (shapeCast S16x24x1
          (multiReduction .add [2] S16x24 (mulf (shapeCast S16x24x4096 x0 shapeCasts_S16x24x4096_S16x24x4096)
            (shapeCast S16x24x4096 x0 shapeCasts_S16x24x4096_S16x24x4096)) 0x00000000#32 reduces_S16x24x4096_S16x24 (.inl rfl) rfl)
          shapeCasts_S16x24_S16x24x1) (broadcast S16x24x1 (Named.named (F := Ideal) κ "eps_norm_sq" (φ := .f32) 0x179ABE15#32))))
          broadcasts_S16x24x1_S16x24x4096)) bitsLt_bf16_f32 (ix3 b r d)
      = unitRsqrt (Named.named (F := Ideal) κ "eps_norm_sq" (φ := .f32) 0x179ABE15#32) (fun m d => x0 (ix3 b m d)) r d := by
    intro r
    rw [shapeCast_self]
    exact stage_unit x0 _ _ _ _ _ _ b r d
  exact congrArg₂ (· * ·) (hrow m') (hrow n')

end Cert.Contrast.Ker

end
-- ==== Proof.KernelBlocks.lean ====
/-
  What the kernel's three input windows hold at a grid point, read at explicit coordinates: sixteen samples'
  anchor rows of the feature array, and the two 24 × 24 mask tables entry by entry.
-/
import proofs.«103575_j89678917140919_2_alg».proof.Proof.Gen.KernelIdeal.Frame
import proofs.«103575_j89678917140919_2_alg».proof.Proof.Spec
import Idealize.ShloMosaic.Lib.Pipeline.Value
import Idealize.ShloMosaic.Lib.ValueIdx
import Idealize.ShloMosaic.Lib.StableHlo.Run

noncomputable section

namespace Cert.Contrast.Ker

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arrays the region finds -/

/-- The feature array regrouped as 24 anchor rows per sample. -/
theorem V_feat (c : Dev nD) :
    (V m c main_v0 : S512x24x4096.Idx → EReal)
      = shapeCast S512x24x4096 (m ((c : Thread nD τ).loc main_arg2)) shapeCasts_S512x2x12x4096_S512x24x4096 := by
  show StableHlo.after hostOps0 (fun b => m (c, b)) (Proc.devRef .tc main_v0) = _
  after_results
  rfl

/-- The first mask table, entry by entry in row-major order. -/
theorem V_lm (c : Dev nD) :
    (V m c main_cst : S1x24x24.Idx → EReal) = fun i => FloatOps.ofBits (F := Ideal) .f32 (lit0 (S1x24x24.rowMajor i)) := by
  show StableHlo.after hostOps0 (fun b => m (c, b)) (Proc.devRef .tc main_cst) = _
  after_results
  rfl

/-- The second mask table, entry by entry in row-major order. -/
theorem V_pm (c : Dev nD) :
    (V m c main_cst_0 : S1x24x24.Idx → EReal) = fun i => FloatOps.ofBits (F := Ideal) .f32 (lit1 (S1x24x24.rowMajor i)) := by
  show StableHlo.after hostOps0 (fun b => m (c, b)) (Proc.devRef .tc main_cst_0) = _
  after_results
  rfl

/-- The windows' block indices over the grid: the features move one block of sixteen samples per point, the tables stay. -/
theorem idx_facts : ∀ t : Fin cfg0.N, win0_0.index t (0 : Fin 3) = t.val ∧ win0_0.index t (1 : Fin 3) = 0
    ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0 :=
  (by decide +kernel : ∀ t : Fin grid0.N, _)

/-! ## The reshape at an index -/

/-- Anchor `a` of sample `b` is view `a / 12`, class `a % 12` of the feature array. -/
theorem feat_at (X : S512x2x12x4096.Idx → EReal) (b : Fin 512) (a : Fin 24) (d : Fin 4096) :
    shapeCast S512x24x4096 X shapeCasts_S512x2x12x4096_S512x24x4096 (ix3 b a d) = rowsOf X b a d := by
  have hb := b.isLt
  have ha := a.isLt
  have hd := d.isLt
  unfold rowsOf
  refine shapeCast_apply X shapeCasts_S512x2x12x4096_S512x24x4096 (ix3 b a d)
    (ix4 b (⟨a.val / 12, by omega⟩ : Fin 2) (⟨a.val % 12, by omega⟩ : Fin 12) d) ?_
  rw [Shape.rowMajor_val_four, Shape.rowMajor_val_three]
  show ((b.val * 2 + a.val / 12) * 12 + a.val % 12) * 4096 + d.val = (b.val * 24 + a.val) * 4096 + d.val
  omega

/-! ## The blocks at a grid point -/

/-- Point `t`'s feature block holds samples `16 t` to `16 t + 15`. -/
theorem blk_feat (c : Dev nD) (t : Fin cfg0.N) (j : Fin 16) (a : Fin 24) (d : Fin 4096) :
    (iblk m c 0 t : Vec Ideal S16x24x4096 .f32) (ix3 j a d)
      = rowsOf (m ((c : Thread nD τ).loc main_arg2))
          ⟨16 * t.val + j.val, by have hN : grid0.N = 32 := N_0; have ht : t.val < grid0.N := t.isLt; have := j.isLt; omega⟩ a d := by
  have hN : grid0.N = 32 := N_0
  have ht : t.val < grid0.N := t.isLt
  have hj := j.isLt
  obtain ⟨e0, e1, e2, -⟩ := idx_facts t
  have hi : ((cfg0.win 0).blk t).view.emb (ix3 j a d)
      = (ix3 (⟨16 * t.val + j.val, by omega⟩ : Fin 512) a d : S512x24x4096.Idx) := by
    funext x; apply Fin.ext
    match x with
    | ⟨0, _⟩ => show win0_0.index t (0 : Fin 3) * 16 + 1 * j.val = 16 * t.val + j.val; omega
    | ⟨1, _⟩ => show win0_0.index t (1 : Fin 3) * 24 + 1 * a.val = a.val; omega
    | ⟨2, _⟩ => show win0_0.index t (2 : Fin 3) * 4096 + 1 * d.val = d.val; omega
  unfold iblk
  show V m c main_v0 (((cfg0.win 0).blk t).view.emb (ix3 j a d)) = _
  rw [hi, V_feat, feat_at]

/-- The first table's window is the whole table at every point. -/
theorem blk_lm (c : Dev nD) (t : Fin cfg0.N) (u : Fin 1) (a n : Fin 24) :
    (iblk m c 1 t : Vec Ideal S1x24x24 .f32) (ix3 u a n) = Ideal.ofBits .f32 (lit0 (S1x24x24.rowMajor (ix3 u a n))) := by
  obtain ⟨-, -, -, e0, e1, e2, -⟩ := idx_facts t
  have hi : ((cfg0.win 1).blk t).view.emb (ix3 u a n) = (ix3 u a n : S1x24x24.Idx) := by
    funext x; apply Fin.ext
    match x with
    | ⟨0, _⟩ => show win0_1.index t (0 : Fin 3) * 1 + 1 * u.val = u.val; omega
    | ⟨1, _⟩ => show win0_1.index t (1 : Fin 3) * 24 + 1 * a.val = a.val; omega
    | ⟨2, _⟩ => show win0_1.index t (2 : Fin 3) * 24 + 1 * n.val = n.val; omega
  unfold iblk
  show V m c main_cst (((cfg0.win 1).blk t).view.emb (ix3 u a n)) = _
  rw [hi, V_lm]
  rfl

/-- The second table's window is the whole table at every point. -/
theorem blk_pm (c : Dev nD) (t : Fin cfg0.N) (u : Fin 1) (a n : Fin 24) :
    (iblk m c 2 t : Vec Ideal S1x24x24 .f32) (ix3 u a n) = Ideal.ofBits .f32 (lit1 (S1x24x24.rowMajor (ix3 u a n))) := by
  obtain ⟨-, -, -, -, -, -, e0, e1, e2⟩ := idx_facts t
  have hi : ((cfg0.win 2).blk t).view.emb (ix3 u a n) = (ix3 u a n : S1x24x24.Idx) := by
    funext x; apply Fin.ext
    match x with
    | ⟨0, _⟩ => show win0_2.index t (0 : Fin 3) * 1 + 1 * u.val = u.val; omega
    | ⟨1, _⟩ => show win0_2.index t (1 : Fin 3) * 24 + 1 * a.val = a.val; omega
    | ⟨2, _⟩ => show win0_2.index t (2 : Fin 3) * 24 + 1 * n.val = n.val; omega
  unfold iblk
  show V m c main_cst_0 (((cfg0.win 2).blk t).view.emb (ix3 u a n)) = _
  rw [hi, V_pm]
  rfl

end Cert.Contrast.Ker

end
-- ==== Proof.Consts.lean ====
/-
  The float words the two programs spell, as the extended reals their patterns denote: the sign bit,
  eight exponent bits (bias 127) and twenty-three fraction bits of each word, read as a dyadic rational.
-/
import Idealize.ShloMosaic.PureOps.Ideal

noncomputable section

namespace Cert.Contrast.Consts

open Idealize.ShloMosaic

/-- `24.0 = 1.5 · 2⁴`. -/
theorem w24 : Ideal.ofBits .f32 0x41C00000#32 = ((24 : ℝ) : EReal) := by
  simp [Ideal.ofBits, Ideal.ieee, -EReal.coe_mul]; norm_num

/-- `1024.0 = 2¹⁰`. -/
theorem w1024 : Ideal.ofBits .f32 0x44800000#32 = ((1024 : ℝ) : EReal) := by
  simp [Ideal.ofBits, Ideal.ieee, -EReal.coe_mul]; norm_num

/-- `512.0 = 2⁹`. -/
theorem w512 : Ideal.ofBits .f32 0x44000000#32 = ((512 : ℝ) : EReal) := by
  simp [Ideal.ofBits, Ideal.ieee, -EReal.coe_mul]; norm_num

/-- `2⁻⁹ = 1/512`. -/
theorem wi512 : Ideal.ofBits .f32 0x3B000000#32 = ((1 / 512 : ℝ) : EReal) := by
  simp [Ideal.ofBits, Ideal.ieee, -EReal.coe_mul]; norm_num

/-- `1.0`. -/
theorem w1 : Ideal.ofBits .f32 0x3F800000#32 = 1 := by
  simp [Ideal.ofBits, Ideal.ieee, -EReal.coe_mul]; norm_num

/-- The temperature, the float nearest `0.1`: `13421773 · 2⁻²⁷`. -/
theorem wT : Ideal.ofBits .f32 0x3DCCCCCD#32 = ((13421773 / 134217728 : ℝ) : EReal) := by
  simp [Ideal.ofBits, Ideal.ieee, -EReal.coe_mul]; norm_num

/-- Minus the temperature. -/
theorem wnegT : Ideal.ofBits .f32 0xBDCCCCCD#32 = ((-(13421773 / 134217728) : ℝ) : EReal) := by
  simp [Ideal.ofBits, Ideal.ieee, -EReal.coe_mul]; norm_num

/-- The length clamp, the float nearest `10⁻¹²`: `9223372 · 2⁻⁶³ = 2305843 · 2⁻⁶¹`. -/
theorem wD : Ideal.ofBits .f32 0x2B8CBCCC#32 = ((2305843 / 2305843009213693952 : ℝ) : EReal) := by
  simp [Ideal.ofBits, Ideal.ieee, -EReal.coe_mul]; norm_num

/-- The count offset, the float nearest `10⁻⁶`: `8796093 · 2⁻⁴³`. -/
theorem we : Ideal.ofBits .f32 0x358637BD#32 = ((8796093 / 8796093022208 : ℝ) : EReal) := by
  simp [Ideal.ofBits, Ideal.ieee, -EReal.coe_mul]; norm_num

theorem we_pos : (0 : ℝ) < 8796093 / 8796093022208 := by norm_num

end Cert.Contrast.Consts

end
-- ==== Proof.KernelMasks.lean ====
/-
  The kernel's two literal [1, 24, 24] arrays are the loss's two masks.

  The row-major position of entry (0, m, n) is 24 m + n. At that position the first table holds the word
  of 0.0 when m = n and the word of 1.0 otherwise (every other anchor, never the anchor itself); the
  second holds the word of 1.0 exactly when m ≠ n and the classes m mod 12 and n mod 12 are at distance
  at most one (the positives). Both are facts about finitely many words, decided once over the 24 × 24
  pairs; the two words denote 0 and 1.
-/
import proofs.«103575_j89678917140919_2_alg».proof.KernelIdeal
import proofs.«103575_j89678917140919_2_alg».proof.Proof.Spec
import proofs.«103575_j89678917140919_2_alg».proof.Proof.Consts
import Idealize.ShloMosaic.Lib.ValueIdx
import Idealize.ShloMosaic.PureOps.Ideal.Laws

noncomputable section

namespace Cert.Contrast.KerMasks

open Idealize.ShloMosaic

/-- The row-major position of entry `(u, m, n)` of a [1, 24, 24] array is `24 m + n`. -/
theorem pos (u : Fin 1) (m n : Fin 24) :
    (Cert.KernelIdeal.S1x24x24.rowMajor (ValueIdx.ix3 u m n) : Fin 576)
      = (⟨m.val * 24 + n.val, by have := m.isLt; have := n.isLt; omega⟩ : Fin 576) := by
  apply Fin.ext
  rw [Shape.rowMajor_val_three]
  show (u.val * 24 + m.val) * 24 + n.val = m.val * 24 + n.val
  have := u.isLt
  omega

/-- The first table, word by word: zero on the diagonal, the word of one off it. -/
theorem lit0_word : ∀ m n : Fin 24,
    Cert.KernelIdeal.lit0 (⟨m.val * 24 + n.val, by have := m.isLt; have := n.isLt; omega⟩ : Fin 576)
      = if m = n then 0x00000000#32 else 0x3F800000#32 := by
  decide +kernel

/-- The second table, word by word: the word of one at the positives, zero elsewhere. -/
theorem lit1_word : ∀ m n : Fin 24,
    Cert.KernelIdeal.lit1 (⟨m.val * 24 + n.val, by have := m.isLt; have := n.isLt; omega⟩ : Fin 576)
      = if m ≠ n ∧ m.val % 12 ≤ n.val % 12 + 1 ∧ n.val % 12 ≤ m.val % 12 + 1 then 0x3F800000#32
        else 0x00000000#32 := by
  decide +kernel

/-- The first literal array is the softmax mask. -/
theorem lit0_eq (u : Fin 1) (m n : Fin 24) :
    Ideal.ofBits .f32 (Cert.KernelIdeal.lit0 (Cert.KernelIdeal.S1x24x24.rowMajor (ValueIdx.ix3 u m n)))
      = Cert.Contrast.lmask m n := by
  rw [pos u m n, lit0_word m n]
  unfold Cert.Contrast.lmask
  split_ifs
  · exact Ideal.ofBits_zero_f32
  · exact Consts.w1

/-- The second literal array is the mask of the positives. -/
theorem lit1_eq (u : Fin 1) (m n : Fin 24) :
    Ideal.ofBits .f32 (Cert.KernelIdeal.lit1 (Cert.KernelIdeal.S1x24x24.rowMajor (ValueIdx.ix3 u m n)))
      = Cert.Contrast.pmask m n := by
  rw [pos u m n, lit1_word m n]
  unfold Cert.Contrast.pmask
  split_ifs
  · exact Consts.w1
  · exact Ideal.ofBits_zero_f32

end Cert.Contrast.KerMasks

end
-- ==== Proof.KernelArr.lean ====
/-
  From one grid point to the result. A grid point's [8, 128] output block holds, at every entry, the sum of its
  sixteen samples' losses over 1024; the thirty-two blocks tile the [256, 128] output array, which therefore ends
  holding, at row `p`, the value of tile `p / 8`; the host then sums the whole array and scales the total by 1/512.
-/
import proofs.«103575_j89678917140919_2_alg».proof.Proof.Gen.KernelIdeal.Frame
import proofs.«103575_j89678917140919_2_alg».proof.Proof.KernelPay
import proofs.«103575_j89678917140919_2_alg».proof.Proof.KernelBlocks
import proofs.«103575_j89678917140919_2_alg».proof.Proof.KernelMasks
import Idealize.ShloMosaic.Lib.Pipeline.Value
import Idealize.ShloMosaic.Lib.StableHlo.Run

set_option maxRecDepth 16384

noncomputable section

namespace Cert.Contrast.Ker

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

open Cert.Contrast.KerMasks

/-- The clamp on a row's squared length and the logits' scale: the kernel's two named constants. -/
abbrev κsq : EReal := Named.named (F := Ideal) κ "eps_norm_sq" (φ := .f32) 0x179ABE15#32
abbrev κinv : EReal := Named.named (F := Ideal) κ "inv_temperature" (φ := .f32) 0x41200000#32

/-- The 512 samples' anchor rows, out of the feature argument. -/
abbrev feats (c : Dev nD) : Fin 512 → Fin 24 → Fin 4096 → EReal := rowsOf (m ((c : Thread nD τ).loc main_arg2))

/-- What the output array ends holding: at row `p`, tile `p / 8`'s sum of sample losses over 1024. -/
def outArr (c : Dev nD) : S256x128.Idx → EReal := fun i =>
  Ideal.div (∑ j : Fin 16, sampleMul κsq κinv (Ideal.ofBits .f32 0xBDCCCCCD#32) (Ideal.ofBits .f32 0x41C00000#32)
      (Ideal.ofBits .f32 0x358637BD#32) lmask pmask
      (feats m c ⟨16 * ((i 0).val / 8) + j.val, by have := idx2_lt0 i; have := j.isLt; omega⟩))
    (Ideal.ofBits .f32 0x44800000#32)

theorem hz2 : (![0, 0] : Fin 2 → Nat) = fun _ => 0 := funext fun a => by fin_cases a <;> rfl
theorem hz3 : (![0, 0, 0] : Fin 3 → Nat) = fun _ => 0 := funext fun a => by fin_cases a <;> rfl

/-- The output window's index map, decided over the grid: point `t` writes block row `t`. -/
theorem idx_out : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- What point `t` writes back is block `t` of `outArr`. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero hz2]
  simp only [View.ld_unit_zero (S := S16x24x4096) hz3, View.ld_unit_zero (S := S1x24x24) hz3]
  funext y
  obtain ⟨r, l, rfl⟩ : ∃ (r : Fin 8) (l : Fin 128), y = ix2 r l := ⟨y 0, y 1, eq_ix2 y⟩
  show k0_pay1 (F := Ideal) (k0_pay2 (F := Ideal) (iblk m c 0 t) (iblk m c 1 t) (iblk m c 2 t)) (ix2 r l)
      = outArr m c (((cfg0.win 3).blk t).view.emb (ix2 r l))
  rw [stage_tile]
  unfold outArr
  refine congrArg (fun s => Ideal.div s _) (Finset.sum_congr rfl fun j _ => ?_)
  refine (pay2_apply (iblk m c 0 t) (iblk m c 1 t) (iblk m c 2 t) j (0 : Fin 1)).trans ?_
  have hlm : (fun a n => (iblk m c 1 t : Vec Ideal S1x24x24 .f32) (ix3 (0 : Fin 1) a n)) = lmask :=
    funext fun a => funext fun n => (blk_lm m c t 0 a n).trans (lit0_eq 0 a n)
  have hpm : (fun a n => (iblk m c 2 t : Vec Ideal S1x24x24 .f32) (ix3 (0 : Fin 1) a n)) = pmask :=
    funext fun a => funext fun n => (blk_pm m c t 0 a n).trans (lit1_eq 0 a n)
  have hx : (fun a d => (iblk m c 0 t : Vec Ideal S16x24x4096 .f32) (ix3 j a d))
      = feats m c ⟨16 * ((((cfg0.win 3).blk t).view.emb (ix2 r l) 0).val / 8) + j.val, by
          have := idx2_lt0 (((cfg0.win 3).blk t).view.emb (ix2 r l)); have := j.isLt; omega⟩ := by
    funext a d
    rw [blk_feat]
    refine congrArg (fun b => feats m c b a d) (Fin.ext ?_)
    show 16 * t.val + j.val = 16 * ((win0_3.index t (0 : Fin 2) * 8 + 1 * r.val) / 8) + j.val
    rw [(idx_out t).1]
    have := r.isLt
    omega
  rw [hlm, hpm, hx]

/-- Every index of the output array lies in the block of the point its row names. -/
theorem cover (i : S256x128.Idx) :
    ∃ t : Fin cfg0.N, (cfg0.win 3).flush t = true ∧ i ∈ ((cfg0.win 3).blk t).view.set := by
  have hN : cfg0.N = 32 := N_0
  have h0 := idx2_lt0 i
  have h1 := idx2_lt1 i
  obtain ⟨t, ht⟩ : ∃ t : Fin cfg0.N, t.val = (i 0).val / 8 := ⟨⟨(i 0).val / 8, by rw [hN]; omega⟩, rfl⟩
  refine ⟨t, flush0_3 t, ?_⟩
  show i ∈ ((View.whole main_v1).slice (win0_3.rect t)).set
  rw [View.set_slice_whole, Rect.mem_set_unit]
  intro a
  obtain ⟨e0, e1⟩ := idx_out t
  match a with
  | ⟨0, _⟩ =>
    show win0_3.index t (0 : Fin 2) * 8 ≤ (i 0).val ∧ (i 0).val < win0_3.index t (0 : Fin 2) * 8 + 8
    rw [e0, ht]
    omega
  | ⟨1, _⟩ =>
    show win0_3.index t (1 : Fin 2) * 128 ≤ (i 1).val ∧ (i 1).val < win0_3.index t (1 : Fin 2) * 128 + 128
    rw [e1]
    omega

/-- So the output array ends holding `outArr`. -/
theorem final (c : Dev nD) : (dats m 0 c).arrAt 3 cfg0.N = outArr m c :=
  (dats m 0 c).arrAt_eq_of_cover 3 (outArr m c) (fun t _ => flushed_eq m c t) (cover)

/-! ## The host's two operations after the call -/

/-- The result buffer after the host's sum and scaling: 1/512 of the output array's total — the specification's
    `kerLoss` of the samples' rows. -/
theorem tail_eq (c : Dev nD) :
    Pipeline.afterTail₀ cfgs (dats m) 0 (V0 m) [hostOps1] c main_v3
      = fun _ => kerLoss κsq κinv (Ideal.ofBits .f32 0xBDCCCCCD#32) (Ideal.ofBits .f32 0x41C00000#32)
          (Ideal.ofBits .f32 0x358637BD#32) (Ideal.ofBits .f32 0x44800000#32) (Ideal.ofBits .f32 0x3B000000#32) (feats m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v1)
      = outArr m c from (Pipeline.withArrays_arr spec0 launch0.win.arr_inj c _ _ 3).trans (final m c)]
  funext i
  show Ideal.ofBits .f32 0x3B000000#32
      * Host.reduceAdd (F := Ideal) (outArr m c) (constant S_ .f32 0x00000000#32) reducesTo_S256x128_S_d0_1 h_S_ i = _
  simp only [Host.reduceAdd, Ideal.hostReduceAdd_def]
  rw [Ideal.hostReduceAdd_total _ (fun b => b.elim0)]
  show Ideal.ofBits .f32 0x3B000000#32 * (Ideal.ofBits .f32 0x00000000#32 + ∑ i : S256x128.Idx, outArr m c i) = _
  rw [Ideal.ofBits_zero_f32, zero_add]
  rfl

/-! ## The run, read -/

/-- The kernel's run with its result named: every weakly fair execution ends with the result at the specification's
    `kerLoss` of the samples' rows and the three arguments unchanged. -/
theorem run : θ_run defs (onTc (τ := τ) (main (F := Ideal))) ⟨m, fun _ => 0, ρ⟩ fun r => ∀ c : Dev nD,
      r.2.mem ((c.tc : Thread nD τ).loc main_v3)
        = (fun _ => kerLoss κsq κinv (Ideal.ofBits .f32 0xBDCCCCCD#32) (Ideal.ofBits .f32 0x41C00000#32)
            (Ideal.ofBits .f32 0x358637BD#32) (Ideal.ofBits .f32 0x44800000#32) (Ideal.ofBits .f32 0x3B000000#32) (feats m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Contrast.Ker

end
-- ==== Proof.RefValue.lean ====
/-
  The reference program read into the specification: at the ideal values the reference's result is
  `refLoss` of the feature rows. The proof follows the program's order: the two masks, the unit rows,
  the logits, each anchor's mean log-probability, each sample's loss, the mean over the samples.
-/
import proofs.«103575_j89678917140919_2_alg».proof.Proof.Gen.ReferenceIdeal.Read
import proofs.«103575_j89678917140919_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Contrast.Ref

open Cert.ReferenceIdeal Cert.ReferenceIdeal.Gen Cert.ReferenceIdeal.Read Idealize.ShloMosaic Idealize.ShloMosaic.ValueIdx

/-! ## The words that are evaluated: zero and one -/

/-- The pattern of `1.0` denotes the extended real `1`. -/
theorem one_word : Ideal.ofBits .f32 0x3F800000#32 = 1 := by
  simp [Ideal.ofBits, Ideal.ieee, -EReal.coe_mul]; norm_num

/-- A one-bit word read unsigned is `1` or `0`. -/
theorem uitofp_bit (p : Prop) [Decidable p] :
    FloatOps.uitofp (F := Ideal) .f32 (if p then 1#1 else 0#1) = if p then (1 : EReal) else 0 := by
  by_cases h : p
  · rw [if_pos h, if_pos h]; show (((1#1 : BitVec 1).toNat : ℝ) : EReal) = 1; simp
  · rw [if_neg h, if_neg h]; show (((0#1 : BitVec 1).toNat : ℝ) : EReal) = 0; simp

/-! ## The two masks -/

/-- Equality of two anchor numbers as 32-bit words is their equality. -/
theorem eq_word (m n : Fin 24) :
    IntOp.cmpi .eq (IntOp.addi (BitVec.ofNat 32 m.val) 0#32) (BitVec.ofNat 32 n.val) = if m = n then 1#1 else 0#1 := by
  revert m n; decide

/-- Two class numbers are at distance at most one as 32-bit words exactly when they are as numbers. -/
theorem near_word (a b : Fin 12) :
    IntOp.cmpi .sle (IntOp.absi (IntOp.subi (BitVec.ofNat 32 a.val) (BitVec.ofNat 32 b.val))) 1#32
      = if a.val ≤ b.val + 1 ∧ b.val ≤ a.val + 1 then 1#1 else 0#1 := by
  revert a b; decide

/-- The softmax mask, computed as one minus the indicator of the diagonal. -/
theorem lmask_eq (m n : Fin 24) : val_main_v15 (F := Ideal) (ix2 m n) = lmask m n := by
  rw [val_main_v15_apply, val_main_v14_apply, val_main_cst_1_apply, val_main_v13_apply, val_main_v12_apply,
    val_main_v11_apply, val_main_v8_apply, val_main_v9_apply, val_main_v10_apply, val_main_c_apply]
  show Ideal.ofBits .f32 0x3F800000#32
      - FloatOps.uitofp (F := Ideal) .f32
          (IntOp.cmpi .eq (IntOp.addi (BitVec.ofNat 32 m.val) 0#32) (BitVec.ofNat 32 n.val)) = lmask m n
  rw [eq_word, uitofp_bit, one_word, lmask]
  by_cases h : m = n
  · rw [if_pos h, if_pos h, ← EReal.coe_one, ← EReal.coe_sub, sub_self, EReal.coe_zero]
  · rw [if_neg h, if_neg h, sub_zero]

/-- The indicator that two classes are neighbours, before it is tiled over the two views. -/
theorem near_eq (a b : Fin 12) :
    val_main_v25 (F := Ideal) (ix2 a b) = if a.val ≤ b.val + 1 ∧ b.val ≤ a.val + 1 then (1 : EReal) else 0 := by
  rw [val_main_v25_apply, val_main_v24_apply, val_main_v22_apply, val_main_v21_apply, val_main_v19_apply,
    val_main_v20_apply, val_main_v17_apply, val_main_v18_apply, val_main_v16_apply, val_main_v16_apply,
    val_main_v23_apply, val_main_c_2_apply]
  show FloatOps.uitofp (F := Ideal) .f32
      (IntOp.cmpi .sle (IntOp.absi (IntOp.subi (BitVec.ofNat 32 a.val) (BitVec.ofNat 32 b.val))) 1#32) = _
  rw [near_word, uitofp_bit]

/-- Tiling by the two views reads the class indicator at the anchors' classes. -/
theorem tile_eq (m n : Fin 24) :
    val_main_v28 (F := Ideal) (ix2 m n)
      = val_main_v25 (F := Ideal) (ix2 (⟨m.val % 12, Nat.mod_lt _ (by decide)⟩ : Fin 12) (⟨n.val % 12, Nat.mod_lt _ (by decide)⟩ : Fin 12)) := by
  rw [val_main_v28_apply, val_main_v27_apply, val_main_v26_apply]
  refine congrArg (val_main_v25 (F := Ideal)) (funext fun a => Fin.ext ?_)
  have hm := m.isLt
  have hn := n.isLt
  match a with
  | ⟨0, _⟩ =>
    show ((((0 * 12 + (m.val * 24 + n.val) / 24 % 12) * 1 + 0) * 12 + (m.val * 24 + n.val) % 12) / 12) = m.val % 12
    omega
  | ⟨1, _⟩ =>
    show ((((0 * 12 + (m.val * 24 + n.val) / 24 % 12) * 1 + 0) * 12 + (m.val * 24 + n.val) % 12) % 12) = n.val % 12
    omega

/-- The positives' mask: neighbouring classes in either view, the anchor itself excluded. -/
theorem pmask_eq (m n : Fin 24) : val_main_v29 (F := Ideal) (ix2 m n) = pmask m n := by
  rw [val_main_v29_apply, tile_eq, near_eq, lmask_eq, lmask, pmask]
  show (if m.val % 12 ≤ n.val % 12 + 1 ∧ n.val % 12 ≤ m.val % 12 + 1 then (1 : EReal) else 0)
      * (if m = n then 0 else 1) = _
  by_cases h : m = n
  · rw [if_pos h, mul_zero, if_neg (fun hh => hh.1 h)]
  · rw [if_neg h, mul_one]
    by_cases hc : m.val % 12 ≤ n.val % 12 + 1 ∧ n.val % 12 ≤ m.val % 12 + 1
    · rw [if_pos hc, if_pos ⟨h, hc⟩]
    · rw [if_neg hc, if_neg (fun hh => hc hh.2)]

/-! ## The unit rows -/

section Rows
variable (X : (⟨S512x2x12x4096, .f32⟩ : BufTy).Contents (Elt Ideal))

/-- The reshape to 24 anchors reads the feature array at the anchor's view and class. -/
theorem rows_eq (b : Fin 512) (m : Fin 24) (d : Fin 4096) :
    val_main_v0 (F := Ideal) X (ix3 b m d) = rowsOf X b m d := by
  rw [val_main_v0_apply, rowsOf]
  refine congrArg X (funext fun a => Fin.ext ?_)
  have hb := b.isLt
  have hm := m.isLt
  have hd := d.isLt
  match a with
  | ⟨0, _⟩ => show ((b.val * 24 + m.val) * 4096 + d.val) / 98304 = b.val; omega
  | ⟨1, _⟩ => show ((b.val * 24 + m.val) * 4096 + d.val) / 49152 % 2 = m.val / 12; omega
  | ⟨2, _⟩ => show ((b.val * 24 + m.val) * 4096 + d.val) / 4096 % 12 = m.val % 12; omega
  | ⟨3, _⟩ => show ((b.val * 24 + m.val) * 4096 + d.val) % 4096 = d.val; omega

/-- A row's squared length, as the reference sums it from zero. -/
theorem sq_eq (b : Fin 512) (m : Fin 24) :
    val_main_call0_v1 (F := Ideal) X (ix2 b m) = ∑ k, rowsOf X b m k * rowsOf X b m k := by
  rw [val_main_call0_v1_apply, val_main_call0_cst_apply, Ideal.ofBits_def, Ideal.ofBits_zero_f32, zero_add]
  refine Finset.sum_congr rfl fun k _ => ?_
  have hi : idx_main_call0_v1 (ix2 b m) k = ix3 b m k :=
    funext fun a => Fin.ext (by match a with | ⟨0, _⟩ => rfl | ⟨1, _⟩ => rfl | ⟨2, _⟩ => rfl)
  rw [hi, val_main_call0_v0_apply, Ideal.mulf_def, rows_eq]

/-- A row over its length clamped below. -/
theorem unit_eq (b : Fin 512) (m : Fin 24) (d : Fin 4096) :
    val_main_v4 (F := Ideal) X (ix3 b m d) = unitDiv (Ideal.ofBits .f32 0x2B8CBCCC#32) (rowsOf X b) m d := by
  have hi : idx_main_call0_v2 (idx_main_v3 (ix3 b m d)) = ix2 b m :=
    funext fun a => Fin.ext (by match a with | ⟨0, _⟩ => rfl | ⟨1, _⟩ => rfl)
  rw [val_main_v4_apply, Ideal.hostDivf_def, rows_eq, val_main_v3_apply, val_main_v2_apply, Ideal.maximumf_def,
    val_main_call1_v1_apply, val_main_call1_v0_apply, val_main_cst_apply, Ideal.ofBits_def, val_main_v1_apply,
    Ideal.hostUnary_sqrt_def, val_main_call0_v2_apply, hi, sq_eq, unitDiv]

/-! ## The logits -/

/-- The inner products of a sample's unit rows over the temperature. -/
theorem logit_eq (b : Fin 512) (m n : Fin 24) :
    val_main_v7 (F := Ideal) X (ix3 b m n)
      = Ideal.div (gram (unitDiv (Ideal.ofBits .f32 0x2B8CBCCC#32) (rowsOf X b)) m n) (Ideal.ofBits .f32 0x3DCCCCCD#32) := by
  rw [val_main_v7_apply, Ideal.hostDivf_def, val_main_v6_apply, val_main_cst_0_apply, Ideal.ofBits_def,
    val_main_v5_apply, gram]
  refine congrArg (Ideal.div · _) (Finset.sum_congr rfl fun k _ => ?_)
  have hl : lidx_main_v5 (ix3 b m n) k = ix3 b m k :=
    funext fun a => Fin.ext (by match a with | ⟨0, _⟩ => rfl | ⟨1, _⟩ => rfl | ⟨2, _⟩ => rfl)
  have hr : ridx_main_v5 (ix3 b m n) k = ix3 b n k :=
    funext fun a => Fin.ext (by match a with | ⟨0, _⟩ => rfl | ⟨1, _⟩ => rfl | ⟨2, _⟩ => rfl)
  rw [hl, hr, unit_eq, unit_eq]

end Rows

/-! ## Each anchor's mean log-probability of its positives -/

section Anchors
variable (X : (⟨S512x2x12x4096, .f32⟩ : BufTy).Contents (Elt Ideal))

/-- The masked softmax denominator of anchor `m`, summed from zero. -/
theorem denom_eq (b : Fin 512) (m : Fin 24) :
    val_main_v34 (F := Ideal) X (ix2 b m)
      = ∑ k, Ideal.exp (val_main_v7 (F := Ideal) X (ix3 b m k)) * lmask m k := by
  rw [val_main_v34_apply, val_main_cst_3_apply, Ideal.ofBits_def, Ideal.ofBits_zero_f32, zero_add]
  refine Finset.sum_congr rfl fun k _ => ?_
  have hi : idx_main_v34 (ix2 b m) k = ix3 b m k :=
    funext fun a => Fin.ext (by match a with | ⟨0, _⟩ => rfl | ⟨1, _⟩ => rfl | ⟨2, _⟩ => rfl)
  have hj : idx_main_v31 (idx_main_v32 (ix3 b m k)) = ix2 m k :=
    funext fun a => Fin.ext (by match a with | ⟨0, _⟩ => rfl | ⟨1, _⟩ => rfl)
  rw [hi, val_main_v33_apply, Ideal.mulf_def, val_main_v30_apply, Ideal.hostUnary_exp_def, val_main_v32_apply,
    val_main_v31_apply, hj, lmask_eq]

/-- The masked log-softmax of anchor `m` summed over its positives, from zero. -/
theorem numer_eq (b : Fin 512) (m : Fin 24) :
    val_main_v42 (F := Ideal) X (ix2 b m)
      = ∑ n, pmask m n * (val_main_v7 (F := Ideal) X (ix3 b m n)
          - Ideal.log (∑ k, Ideal.exp (val_main_v7 (F := Ideal) X (ix3 b m k)) * lmask m k)) := by
  rw [val_main_v42_apply, val_main_cst_4_apply, Ideal.ofBits_def, Ideal.ofBits_zero_f32, zero_add]
  refine Finset.sum_congr rfl fun n _ => ?_
  have hi : idx_main_v42 (ix2 b m) n = ix3 b m n :=
    funext fun a => Fin.ext (by match a with | ⟨0, _⟩ => rfl | ⟨1, _⟩ => rfl | ⟨2, _⟩ => rfl)
  have hp : idx_main_v39 (idx_main_v40 (ix3 b m n)) = ix2 m n :=
    funext fun a => Fin.ext (by match a with | ⟨0, _⟩ => rfl | ⟨1, _⟩ => rfl)
  have hd : idx_main_v35 (idx_main_v37 (ix3 b m n)) = ix2 b m :=
    funext fun a => Fin.ext (by match a with | ⟨0, _⟩ => rfl | ⟨1, _⟩ => rfl)
  rw [hi, val_main_v41_apply, Ideal.mulf_def, val_main_v40_apply, val_main_v39_apply, hp, pmask_eq,
    val_main_v38_apply, Ideal.subf_def, val_main_v37_apply, val_main_v36_apply, Ideal.hostUnary_log_def,
    val_main_v35_apply, hd, denom_eq]

/-- The number of anchor `m`'s positives, summed from zero, plus the guard against an empty set. -/
theorem count_eq (m : Fin 24) :
    val_main_v45 (F := Ideal) (ix1 m) = (∑ n, pmask m n) + Ideal.ofBits .f32 0x358637BD#32 := by
  rw [val_main_v45_apply, Ideal.addf_def, val_main_v44_apply, val_main_cst_6_apply, Ideal.ofBits_def,
    val_main_v43_apply, val_main_cst_5_apply, Ideal.ofBits_def, Ideal.ofBits_zero_f32, zero_add]
  refine congrArg (· + _) (Finset.sum_congr rfl fun n _ => ?_)
  have hi : idx_main_v43 (ix1 m) n = ix2 m n :=
    funext fun a => Fin.ext (by match a with | ⟨0, _⟩ => rfl | ⟨1, _⟩ => rfl)
  rw [hi, pmask_eq]

/-- Anchor `m`'s mean log-probability of its positives, from the sample's logits. -/
theorem anchor_eq (b : Fin 512) (m : Fin 24) :
    val_main_v48 (F := Ideal) X (ix2 b m)
      = anchor lmask pmask (Ideal.ofBits .f32 0x358637BD#32) (fun m n => val_main_v7 (F := Ideal) X (ix3 b m n)) m := by
  have hi : idx_main_v46 (idx_main_v47 (ix2 b m)) = ix1 m :=
    funext fun a => Fin.ext (by match a with | ⟨0, _⟩ => rfl)
  rw [val_main_v48_apply, Ideal.hostDivf_def, numer_eq, val_main_v47_apply, val_main_v46_apply, hi, count_eq, anchor]

/-! ## Each sample's loss -/

/-- A sample's loss: minus the temperature times each anchor's mean, summed from zero, over the number of anchors. -/
theorem sample_eq (b : Fin 512) :
    val_main_v53 (F := Ideal) X (ix1 b)
      = sampleDiv (Ideal.ofBits .f32 0x2B8CBCCC#32) (Ideal.ofBits .f32 0x3DCCCCCD#32) (Ideal.ofBits .f32 0xBDCCCCCD#32)
          (Ideal.ofBits .f32 0x41C00000#32) (Ideal.ofBits .f32 0x358637BD#32) lmask pmask (rowsOf X b) := by
  rw [val_main_v53_apply, Ideal.hostDivf_def, val_main_v52_apply, val_main_cst_9_apply, Ideal.ofBits_def,
    val_main_v51_apply, val_main_cst_8_apply, Ideal.ofBits_def, Ideal.ofBits_zero_f32, zero_add, sampleDiv]
  refine congrArg (Ideal.div · _) (Finset.sum_congr rfl fun m _ => ?_)
  have hi : idx_main_v51 (ix1 b) m = ix2 b m :=
    funext fun a => Fin.ext (by match a with | ⟨0, _⟩ => rfl | ⟨1, _⟩ => rfl)
  have hL : (fun m n => val_main_v7 (F := Ideal) X (ix3 b m n))
      = fun m n => Ideal.div (gram (unitDiv (Ideal.ofBits .f32 0x2B8CBCCC#32) (rowsOf X b)) m n)
          (Ideal.ofBits .f32 0x3DCCCCCD#32) :=
    funext fun m => funext fun n => logit_eq X b m n
  rw [hi, val_main_v50_apply, Ideal.mulf_def, val_main_v49_apply, val_main_cst_7_apply, Ideal.ofBits_def, anchor_eq, hL]

/-! ## The mean over the samples -/

/-- A rank-1 index set is its coordinate range. -/
def idxEquiv1 {n : Nat} : Fin n ≃ (⟨1, ![n]⟩ : Shape).Idx where
  toFun := ix1
  invFun j := j 0
  left_inv _ := rfl
  right_inv j := (eq_ix1 j).symm

/-- The reference's result is the specification's loss of the feature rows. -/
theorem result_eq :
    val_main_v56 (F := Ideal) X
      = fun _ => refLoss (Ideal.ofBits .f32 0x2B8CBCCC#32) (Ideal.ofBits .f32 0x3DCCCCCD#32) (Ideal.ofBits .f32 0xBDCCCCCD#32)
          (Ideal.ofBits .f32 0x41C00000#32) (Ideal.ofBits .f32 0x358637BD#32) (Ideal.ofBits .f32 0x3F800000#32)
          (Ideal.ofBits .f32 0x44000000#32) (rowsOf X) := by
  funext i
  rw [val_main_v56_apply, Ideal.hostDivf_def, val_main_cst_12_apply, Ideal.ofBits_def, val_main_v55_apply,
    Ideal.mulf_def, val_main_cst_11_apply, Ideal.ofBits_def, val_main_v54_apply, val_main_cst_10_apply, Ideal.ofBits_def,
    Ideal.ofBits_zero_f32, zero_add, refLoss, ← Equiv.sum_comp (idxEquiv1 (n := 512))]
  refine congrArg (fun s => Ideal.div (_ * s) _) (Finset.sum_congr rfl fun b _ => ?_)
  exact sample_eq X b

end Anchors

end Cert.Contrast.Ref

end
-- ==== Proof.Algebra.lean ====
/-
  The algebra: on real feature rows the kernel's loss and the reference's loss are one real number.

  Both sides scale a row to unit length, one by the reciprocal square root of the clamped squared
  length, the other by a quotient by the clamped length; the clamp of the first is the square of the
  clamp of the second, so the two scaled rows are the same real row. The logits are then the same real
  matrix (a product with `1/T` is the quotient by `T`), each anchor's value is a real number, a
  sample's loss is the same real number on both sides, and the two ways of averaging the 512 samples
  (tiles of sixteen spread over a [256, 128] array, or one plain mean) agree.
-/
import Mathlib
import Idealize.ShloMosaic.PureOps.Ideal
import Idealize.ShloMosaic.Lib.ValueIdx
import proofs.«103575_j89678917140919_2_alg».proof.Proof.Spec

noncomputable section

namespace Cert.Contrast

open Idealize.ShloMosaic

/-! ### The embedding of the reals -/

/-- The embedding of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding commutes with the maximum. -/
theorem coe_max (a b : ℝ) : ((max a b : ℝ) : EReal) = max (a : EReal) (b : EReal) :=
  EReal.coe_strictMono.monotone.map_max

/-- The quotient of two reals, the divisor not zero, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- A sum of squares of reals, embedded. -/
theorem sumsq_coe {n : Nat} (v : Fin n → ℝ) :
    (∑ k, (v k : EReal) * (v k : EReal)) = ((∑ k, v k * v k : ℝ) : EReal) := by
  rw [coe_sum]; rfl

theorem sumsq_nonneg {n : Nat} (v : Fin n → ℝ) : 0 ≤ ∑ k, v k * v k :=
  Finset.sum_nonneg fun k _ => mul_self_nonneg (v k)

/-! ### The two ways of scaling a row agree -/

/-- The square root of a maximum with a square. -/
theorem sqrt_max_sq {q D : ℝ} (hD : 0 < D) : Real.sqrt (max q (D ^ 2)) = max D (Real.sqrt q) := by
  have hm : Monotone Real.sqrt := fun _ _ h => Real.sqrt_le_sqrt h
  rw [hm.map_max, Real.sqrt_sq hD.le, max_comm]

/-- Scaling by the reciprocal square root of the squared length clamped at `D²`. -/
theorem unitRsqrt_real {D κ : ℝ} (hD : 0 < D) (hκ : κ = D ^ 2) (xr : Fin 24 → Fin 4096 → ℝ)
    (m : Fin 24) (d : Fin 4096) :
    unitRsqrt (κ : EReal) (fun m d => (xr m d : EReal)) m d
      = ((xr m d / max D (Real.sqrt (∑ k, xr m k * xr m k)) : ℝ) : EReal) := by
  have hpos : 0 < max (∑ k, xr m k * xr m k) κ := lt_max_of_lt_right (by rw [hκ]; positivity)
  unfold unitRsqrt
  rw [sumsq_coe (xr m), ← coe_max, Ideal.rsqrt_coe, if_neg (not_lt.mpr hpos.le), if_neg hpos.ne',
    ← EReal.coe_mul, hκ, sqrt_max_sq hD, div_eq_mul_inv]

/-- Dividing by the length clamped at `D`. -/
theorem unitDiv_real {D : ℝ} (hD : 0 < D) (xr : Fin 24 → Fin 4096 → ℝ) (m : Fin 24) (d : Fin 4096) :
    unitDiv (D : EReal) (fun m d => (xr m d : EReal)) m d
      = ((xr m d / max D (Real.sqrt (∑ k, xr m k * xr m k)) : ℝ) : EReal) := by
  have hpos : 0 < max D (Real.sqrt (∑ k, xr m k * xr m k)) := lt_max_of_lt_left hD
  unfold unitDiv
  rw [sumsq_coe (xr m), Ideal.sqrt_coe, if_neg (not_lt.mpr (sumsq_nonneg (xr m))), ← coe_max,
    div_coe_coe _ hpos.ne']

/-- The inner products of real rows are real. -/
theorem gram_real (u : Fin 24 → Fin 4096 → ℝ) (m n : Fin 24) :
    gram (fun m d => (u m d : EReal)) m n = ((∑ d, u m d * u n d : ℝ) : EReal) := by
  unfold gram
  rw [coe_sum]; rfl

/-- On real rows the two sides' logits are the same real matrix. -/
theorem logits_real {D κ s T : ℝ} (hD : 0 < D) (hκ : κ = D ^ 2) (hT : T ≠ 0) (hs : s = 1 / T)
    (xr : Fin 24 → Fin 4096 → ℝ) :
    ∃ L : Fin 24 → Fin 24 → ℝ,
      (fun m n => gram (unitRsqrt (κ : EReal) (fun m d => (xr m d : EReal))) m n * (s : EReal))
          = (fun m n => (L m n : EReal))
      ∧ (fun m n => Ideal.div (gram (unitDiv (D : EReal) (fun m d => (xr m d : EReal))) m n) (T : EReal))
          = (fun m n => (L m n : EReal)) := by
  have h1 : unitRsqrt (κ : EReal) (fun m d => (xr m d : EReal))
      = fun m d => ((xr m d / max D (Real.sqrt (∑ k, xr m k * xr m k)) : ℝ) : EReal) := by
    funext m d; exact unitRsqrt_real hD hκ xr m d
  have h2 : unitDiv (D : EReal) (fun m d => (xr m d : EReal))
      = fun m d => ((xr m d / max D (Real.sqrt (∑ k, xr m k * xr m k)) : ℝ) : EReal) := by
    funext m d; exact unitDiv_real hD xr m d
  refine ⟨fun m n => (∑ d, (xr m d / max D (Real.sqrt (∑ k, xr m k * xr m k)))
      * (xr n d / max D (Real.sqrt (∑ k, xr n k * xr n k)))) * s, ?_, ?_⟩
  · funext m n
    rw [h1, gram_real, ← EReal.coe_mul]
  · funext m n
    rw [h2, gram_real, Ideal.div_coe hT, ← hs, ← EReal.coe_mul]

/-! ### An anchor's value is real -/

/-- With real logits, masks that are nonnegative reals, a softmax mask positive somewhere and a
    positive `e`: the softmax denominator is a positive real, its logarithm is real, the positives'
    count plus `e` is a positive real, and the anchor's value is the real quotient. -/
theorem anchor_real_of_masks (lr pr : Fin 24 → Fin 24 → ℝ) (hl : ∀ m n, 0 ≤ lr m n)
    (hl1 : ∀ m, ∃ k, 0 < lr m k) (hp : ∀ m n, 0 ≤ pr m n) {er : ℝ} (her : 0 < er)
    (L : Fin 24 → Fin 24 → ℝ) (m : Fin 24) :
    ∃ α : ℝ, anchor (fun m n => (lr m n : EReal)) (fun m n => (pr m n : EReal)) (er : EReal)
      (fun m n => (L m n : EReal)) m = (α : EReal) := by
  have hS : 0 < ∑ k, Real.exp (L m k) * lr m k := by
    obtain ⟨k, hk⟩ := hl1 m
    exact Finset.sum_pos' (fun i _ => mul_nonneg (Real.exp_pos _).le (hl m i))
      ⟨k, Finset.mem_univ k, mul_pos (Real.exp_pos _) hk⟩
  have hden : 0 < (∑ n, pr m n) + er :=
    add_pos_of_nonneg_of_pos (Finset.sum_nonneg fun n _ => hp m n) her
  refine ⟨(∑ n, pr m n * (L m n - Real.log (∑ k, Real.exp (L m k) * lr m k)))
    / ((∑ n, pr m n) + er), ?_⟩
  unfold anchor
  simp only [Ideal.exp_coe, ← EReal.coe_mul]
  rw [← coe_sum, Ideal.log_coe, if_neg (not_le.mpr hS)]
  simp only [← EReal.coe_sub, ← EReal.coe_mul]
  rw [← coe_sum, ← coe_sum, ← EReal.coe_add, div_coe_coe _ hden.ne']

theorem lmask_eq : lmask = fun m n => (((if m = n then 0 else 1 : ℝ)) : EReal) := by
  funext m n; unfold lmask; split_ifs <;> simp

theorem pmask_eq : pmask = fun m n =>
    (((if m ≠ n ∧ m.val % 12 ≤ n.val % 12 + 1 ∧ n.val % 12 ≤ m.val % 12 + 1 then 1 else 0 : ℝ)) : EReal) := by
  funext m n; unfold pmask; split_ifs <;> simp

/-- With the two masks of the loss every anchor's value is real. -/
theorem anchor_real {er : ℝ} (her : 0 < er) (L : Fin 24 → Fin 24 → ℝ) (m : Fin 24) :
    ∃ α : ℝ, anchor lmask pmask (er : EReal) (fun m n => (L m n : EReal)) m = (α : EReal) := by
  rw [lmask_eq, pmask_eq]
  refine anchor_real_of_masks _ _ (fun m n => ?_) (fun m => ?_) (fun m n => ?_) her L m
  · split_ifs <;> norm_num
  · rcases eq_or_ne m 0 with h | h
    · exact ⟨1, by subst h; simp⟩
    · exact ⟨0, by simp [h]⟩
  · split_ifs <;> norm_num

/-! ### A sample's loss -/

/-- On real rows the two sides' sample losses are the same real number. -/
theorem sample_eq {D κ s T : ℝ} (hD : 0 < D) (hκ : κ = D ^ 2) (hT : T ≠ 0) (hs : s = 1 / T)
    (cr : ℝ) {er : ℝ} (her : 0 < er) (xr : Fin 24 → Fin 4096 → ℝ) :
    ∃ p : ℝ,
      sampleMul (κ : EReal) (s : EReal) (cr : EReal) ((24 : ℝ) : EReal) (er : EReal) lmask pmask
          (fun m d => (xr m d : EReal)) = (p : EReal)
      ∧ sampleDiv (D : EReal) (T : EReal) (cr : EReal) ((24 : ℝ) : EReal) (er : EReal) lmask pmask
          (fun m d => (xr m d : EReal)) = (p : EReal) := by
  obtain ⟨L, hLk, hLr⟩ := logits_real hD hκ hT hs xr
  choose α hα using anchor_real her L
  refine ⟨cr * ((∑ m, α m) / 24), ?_, ?_⟩
  · unfold sampleMul
    rw [hLk]
    simp only [hα]
    rw [← coe_sum, div_coe_coe _ (by norm_num), ← EReal.coe_mul]
  · unfold sampleDiv
    rw [hLr]
    simp only [hα, ← EReal.coe_mul]
    rw [← coe_sum, div_coe_coe _ (by norm_num), ← Finset.mul_sum, mul_div_assoc]

/-! ### The two averages -/

/-- The 256 rows as thirty-two tiles of eight: a sum over the rows of a function of the row's tile. -/
theorem sum_rows_tile (g : Fin 32 → ℝ) :
    ∑ a : Fin 256, g ⟨a.val / 8, by have := a.isLt; omega⟩ = 8 * ∑ t, g t := by
  rw [← Equiv.sum_comp (finProdFinEquiv : Fin 32 × Fin 8 ≃ Fin 256), Fintype.sum_prod_type,
    Finset.mul_sum]
  refine Finset.sum_congr rfl fun t _ => ?_
  have h : ∀ r : Fin 8,
      g ⟨(finProdFinEquiv (t, r) : Fin 256).val / 8, by have := (finProdFinEquiv (t, r) : Fin 256).isLt; omega⟩
        = g t := by
    intro r
    congr 1
    apply Fin.ext
    have := r.isLt
    simp only [finProdFinEquiv_apply_val]
    omega
  simp only [h, Finset.sum_const, Finset.card_univ, Fintype.card_fin, nsmul_eq_mul]
  norm_num

/-- The 512 samples as thirty-two tiles of sixteen. -/
theorem sum_samples_tile (p : Fin 512 → ℝ) :
    ∑ t : Fin 32, ∑ j : Fin 16, p ⟨16 * t.val + j.val, by have := t.isLt; have := j.isLt; omega⟩
      = ∑ b, p b := by
  rw [← Equiv.sum_comp (finProdFinEquiv : Fin 32 × Fin 16 ≃ Fin 512) p, Fintype.sum_prod_type]
  refine Finset.sum_congr rfl fun t _ => Finset.sum_congr rfl fun j _ => ?_
  congr 1
  apply Fin.ext
  simp only [finProdFinEquiv_apply_val]
  omega

/-- A tile's sum over 1024 at each of the 8 × 128 entries of the tile's block: the total over the
    [256, 128] array is the sum over all samples. -/
theorem tiles_total (p : Fin 512 → ℝ) :
    ∑ i : (⟨2, ![256, 128]⟩ : Shape).Idx,
        (∑ j : Fin 16, p ⟨16 * ((i 0).val / 8) + j.val,
          by have := ValueIdx.idx2_lt0 i; have := j.isLt; omega⟩) / 1024
      = ∑ b, p b := by
  have h := sum_rows_tile fun t : Fin 32 =>
    ∑ j : Fin 16, p ⟨16 * t.val + j.val, by have := t.isLt; have := j.isLt; omega⟩
  calc ∑ i : (⟨2, ![256, 128]⟩ : Shape).Idx,
        (∑ j : Fin 16, p ⟨16 * ((i 0).val / 8) + j.val,
          by have := ValueIdx.idx2_lt0 i; have := j.isLt; omega⟩) / 1024
      = ∑ a : Fin 256, ∑ _c : Fin 128,
          (∑ j : Fin 16, p ⟨16 * (a.val / 8) + j.val, by have := a.isLt; have := j.isLt; omega⟩) / 1024 := by
        rw [ValueIdx.sum_idx2]
    _ = (128 / 1024) * ∑ a : Fin 256,
          ∑ j : Fin 16, p ⟨16 * (a.val / 8) + j.val, by have := a.isLt; have := j.isLt; omega⟩ := by
        rw [Finset.mul_sum]
        refine Finset.sum_congr rfl fun a _ => ?_
        rw [Finset.sum_const, Finset.card_univ, Fintype.card_fin, nsmul_eq_mul]
        push_cast
        ring
    _ = (128 / 1024) * (8 * ∑ t : Fin 32,
          ∑ j : Fin 16, p ⟨16 * t.val + j.val, by have := t.isLt; have := j.isLt; omega⟩) := by
        rw [← h]
    _ = ∑ t : Fin 32,
          ∑ j : Fin 16, p ⟨16 * t.val + j.val, by have := t.isLt; have := j.isLt; omega⟩ := by
        ring
    _ = ∑ b, p b := sum_samples_tile p

/-! ### The two losses -/

/-- On real feature rows, with a positive `e`, the kernel's loss is the reference's. -/
theorem kerLoss_eq_refLoss (cr er : ℝ) (her : 0 < er) (x : Fin 512 → Fin 24 → Fin 4096 → EReal)
    (hx : ∀ b m d, ∃ r : ℝ, x b m d = (r : EReal)) :
    kerLoss ((5316911940649 / 5316911983139663491615228241121378304 : ℝ) : EReal) ((134217728 / 13421773 : ℝ) : EReal)
        (cr : EReal) ((24 : ℝ) : EReal) (er : EReal) ((1024 : ℝ) : EReal) ((1 / 512 : ℝ) : EReal) x
      = refLoss ((2305843 / 2305843009213693952 : ℝ) : EReal) ((13421773 / 134217728 : ℝ) : EReal)
        (cr : EReal) ((24 : ℝ) : EReal) (er : EReal) 1 ((512 : ℝ) : EReal) x := by
  choose xr hxr using hx
  have hxe : x = fun b m d => (xr b m d : EReal) := by funext b m d; exact hxr b m d
  subst hxe
  choose p hpk hpr using fun b => sample_eq (D := 2305843 / 2305843009213693952)
    (κ := 5316911940649 / 5316911983139663491615228241121378304) (s := 134217728 / 13421773)
    (T := 13421773 / 134217728) (by norm_num) (by norm_num) (by norm_num) (by norm_num) cr her (xr b)
  unfold kerLoss refLoss
  simp only [hpk, hpr]
  simp only [← coe_sum, div_coe_coe _ (show (1024 : ℝ) ≠ 0 by norm_num)]
  rw [one_mul, div_coe_coe _ (show (512 : ℝ) ≠ 0 by norm_num), ← EReal.coe_mul, tiles_total]
  congr 1
  ring

end Cert.Contrast

end
-- ==== Proof.LibFiniteEntry.lean ====
/-
  One entry of a float array that passes the test |x| < +inf is a real number.

  On the extended reals |x| is max x (-x), the pattern of `+inf` denotes ⊤, and the comparison answers the one-bit
  word 1 exactly when max x (-x) < ⊤ holds; that excludes x = ⊤ and x = ⊥, so x is a real number.  This is what
  every entry of an array satisfies under a precondition of the form jnp.all(jnp.abs(x) < inf).
-/
import Idealize.ShloMosaic.PureOps.Ideal
import Idealize.ShloMosaic.PureOps.Ideal.Laws

noncomputable section

namespace Cert.Lib.FiniteEntry

open Idealize.ShloMosaic

/-- A one-bit word made from a Boolean is `1` exactly when the Boolean is true. -/
theorem ofBool_one {b : Bool} : BitVec.ofBool b = 1#1 ↔ b = true := by cases b <;> decide

/-- The pattern of `+inf` denotes `⊤`. -/
theorem pinf_word : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An entry whose absolute value compares below the pattern of `+inf` is a real number. -/
theorem real_of_cmp_abs_lt_pinf (x : EReal)
    (h : Ideal.cmp .olt (max x (-x)) (Ideal.ofBits .f32 0x7F800000#32) = 1#1) : ∃ r : ℝ, x = (r : EReal) := by
  rw [pinf_word] at h
  have h' : BitVec.ofBool (decide (max x (-x) < ⊤)) = 1#1 := h
  exact real_of_abs_lt_top x (of_decide_eq_true (ofBool_one.1 h'))

end Cert.Lib.FiniteEntry

end
-- ==== Proof.Finite.lean ====
/-
  Every entry of the feature array is a real number.

  The precondition is the conjunction of two tests of the form "every |x| is below +∞", one per float
  input. Its value 1 gives the second test's value 1; a reduction by `and` over all axes that is 1 had a
  1 at every entry; and an entry whose absolute value compares below the pattern of +∞ is neither ⊤ nor
  ⊥, so it is a real number.
-/
import proofs.«103575_j89678917140919_2_alg».proof.Defs
import proofs.«103575_j89678917140919_2_alg».proof.Proof.Gen.Pre_finite_inputs
import Idealize.ShloMosaic.Lib.ReduceAll
import Idealize.ShloMosaic.Lib.ValueIdx
import proofs.«103575_j89678917140919_2_alg».proof.Proof.LibFiniteEntry

noncomputable section

namespace Cert.Contrast.Finite

open Idealize.ShloMosaic

/-- The scalar shape has one index. -/
instance : Subsingleton Cert.Pre_finite_inputs.S_.Idx := ⟨fun a b => funext fun d => d.elim0⟩

/-- Under the precondition every entry of the feature array is a real number. -/
theorem features_real (a0 : FVec Ideal Cert.Pre_finite_inputs.S512x12 .f32)
    (a1 : IVec Cert.Pre_finite_inputs.S512x12 32)
    (a2 : FVec Ideal Cert.Pre_finite_inputs.S512x2x12x4096 .f32)
    (h : Cert.Pre_finite_inputs.fn (F := Ideal) a0 a1 a2 = fun _ => 1#1) :
    ∀ i, ∃ r : ℝ, a2 i = (r : EReal) := by
  intro i
  have h0 := congrFun h ValueIdx.ix0
  dsimp only [Cert.Pre_finite_inputs.fn] at h0
  have h1 := (IntOp.andi_eq_one.1 h0).2
  have h2 := Host.reduce_andi_all _ _ _ _ _ h1 i
  exact Cert.Lib.FiniteEntry.real_of_cmp_abs_lt_pinf (a2 i) h2

end Cert.Contrast.Finite

end
-- ==== Proof.lean ====
/-
  The certificate of the batch-tiled supervised-contrastive loss against its jnp reference, at the ideal values.

  Both programs compute, per sample, the mean over its 24 anchors of the masked log-softmax of the anchors' cosine
  logits averaged over each anchor's positives, times minus the temperature, and then the mean over the 512 samples.
  They differ in four places, none of which changes the extended real computed from real features:
  the kernel scales a row by the reciprocal square root of its squared length clamped at the SQUARE of the reference's
  norm clamp, where the reference divides by the clamped length (the square root is monotone); it multiplies the inner
  products by the RECIPROCAL of the reference's temperature word, where the reference divides by it; it applies the
  scale to the anchors' mean where the reference applies it anchor by anchor (every anchor's value is a real number:
  each softmax denominator sums 23 positive terms); and it spreads each tile of sixteen samples over the 1024 entries
  of an [8, 128] block of a [256, 128] array whose total the host takes, where the reference sums the samples directly.
  The two readings of the kernel's folded constants are the certificate's two named constants, which `preserves` states.
-/
import proofs.«103575_j89678917140919_2_alg».proof.Defs
import proofs.«103575_j89678917140919_2_alg».proof.Proof.Gen.Kernel
import proofs.«103575_j89678917140919_2_alg».proof.Proof.Gen.Kernel.Skeleton
import proofs.«103575_j89678917140919_2_alg».proof.Proof.Gen.Kernel.Launch
import proofs.«103575_j89678917140919_2_alg».proof.Proof.Gen.Kernel.Points
import proofs.«103575_j89678917140919_2_alg».proof.Proof.Gen.Kernel.Frame
import proofs.«103575_j89678917140919_2_alg».proof.Proof.Gen.KernelIdeal
import proofs.«103575_j89678917140919_2_alg».proof.Proof.Gen.KernelIdeal.Skeleton
import proofs.«103575_j89678917140919_2_alg».proof.Proof.Gen.KernelIdeal.Launch
import proofs.«103575_j89678917140919_2_alg».proof.Proof.Gen.KernelIdeal.Points
import proofs.«103575_j89678917140919_2_alg».proof.Proof.Gen.KernelIdeal.Frame
import proofs.«103575_j89678917140919_2_alg».proof.Proof.Gen.ReferenceIdeal
import proofs.«103575_j89678917140919_2_alg».proof.Proof.Gen.Pre_finite_inputs
import proofs.«103575_j89678917140919_2_alg».proof.Proof.Gen.ReferenceIdeal.Run
import proofs.«103575_j89678917140919_2_alg».proof.Proof.Gen.ReferenceIdeal.Read
import proofs.«103575_j89678917140919_2_alg».proof.Proof.KernelArr
import proofs.«103575_j89678917140919_2_alg».proof.Proof.RefValue
import proofs.«103575_j89678917140919_2_alg».proof.Proof.Algebra
import proofs.«103575_j89678917140919_2_alg».proof.Proof.Finite
import proofs.«103575_j89678917140919_2_alg».proof.Proof.Consts
import Idealize.ShloMosaic.Adequacy
import Idealize.ShloMosaic.Init

noncomputable section

namespace Cert.Proof

open Idealize.ShloMosaic Idealize.ShloMosaic.TcCoe Idealize.SL.Sem Cert.Contrast

/-- The kernel's clamp word denotes the square of the reference's norm clamp, by the certificate's table. -/
theorem named_sq : Named.named (F := Ideal) Cert.KernelIdeal.κ "eps_norm_sq" (φ := .f32) 0x179ABE15#32
    = ((5316911940649 / 5316911983139663491615228241121378304 : ℝ) : EReal) :=
  IdealRules.named_const.ideal_named_scalar _ _ _ _ rfl

/-- The kernel's scale word denotes the reciprocal of the reference's temperature word, by the certificate's table. -/
theorem named_inv : Named.named (F := Ideal) Cert.KernelIdeal.κ "inv_temperature" (φ := .f32) 0x41200000#32
    = ((134217728 / 13421773 : ℝ) : EReal) :=
  IdealRules.named_const.ideal_named_scalar _ _ _ _ rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's two entries: each named constant is, at the ideal values, the value the table gives it. -/
theorem preserves : Cert.preserves_Kernel_KernelIdeal :=
  ⟨IdealRules.named_const.statement Cert.KernelIdeal.κ "eps_norm_sq" .f32 0x179ABE15#32
      ((5316911940649 / 5316911983139663491615228241121378304 : ℝ) : EReal) rfl,
   IdealRules.named_const.statement Cert.KernelIdeal.κ "inv_temperature" .f32 0x41200000#32
      ((134217728 / 13421773 : ℝ) : EReal) rfl⟩

/-- From memories agreeing on the arguments the kernel ends at `kerLoss` of the samples' rows and the reference at
    `refLoss` of the same rows; the features being real numbers, the two are one extended real. -/
theorem algebraic : Cert.algebraic_KernelIdeal_ReferenceIdeal := by
  intro m ρ m' ρ' hpre hagree
  refine ⟨_, Cert.Contrast.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.Contrast.Ref.result_eq, (hagree c).2.2]
  funext _
  have hx := Cert.Contrast.Finite.features_real _ _ _ (hpre c)
  show refLoss _ _ _ _ _ _ _ (rowsOf (m ((c.tc : Thread Cert.KernelIdeal.nD Cert.KernelIdeal.τ).loc Cert.KernelIdeal.main_arg2)))
    = kerLoss (Named.named (F := Ideal) Cert.KernelIdeal.κ "eps_norm_sq" (φ := .f32) 0x179ABE15#32)
        (Named.named (F := Ideal) Cert.KernelIdeal.κ "inv_temperature" (φ := .f32) 0x41200000#32) _ _ _ _ _
        (rowsOf (m ((c.tc : Thread Cert.KernelIdeal.nD Cert.KernelIdeal.τ).loc Cert.KernelIdeal.main_arg2)))
  rw [named_sq, named_inv, Consts.wD, Consts.wT, Consts.wnegT, Consts.w24, Consts.we, Consts.w1, Consts.w512, Consts.w1024, Consts.wi512]
  exact (kerLoss_eq_refLoss _ _ Consts.we_pos _ (fun b a d => hx _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
